-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S_ : Shape := ⟨0, ![]⟩

class Facts : Prop where
  bcast_S_S8192x39 : S_.BroadcastsInDim S8192x39 (![] : Fin 0 → Fin S8192x39.rank)
  reducesTo_S8192x39_S_d0_1 : S8192x39.ReducesTo [0, 1] S_
  h_S_ : 0 < S_.numel
  bcast_S_S512x9 : S_.BroadcastsInDim S512x9 (![] : Fin 0 → Fin S512x9.rank)
  reducesTo_S512x9_S_d0_1 : S512x9.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S23x512 : S_.BroadcastsInDim S23x512 (![] : Fin 0 → Fin S23x512.rank)
  reducesTo_S23x512_S_d0_1 : S23x512.ReducesTo [0, 1] S_

variable [Facts]

def fn_part1 {F : FTy → Type} [FloatOps F] (main_arg4 : FVec F S512 .f32) (main_arg5 : FVec F S23x512 .f32) (main_arg6 : FVec F S23x512 .f32) (main_v13 : IVec S_ 1) (main_v16 : IVec S512x7 1) : IVec S_ 1 :=
  let main_c_5 : IVec S_ 1 := constantI S_ 1 1#1
  let main_v17 : IVec S_ 1 := (fun x v => Host.reduce IntOp.andi x v reducesTo_S512x7_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S23x512 .f32 := Host.absf main_arg5
  let main_cst_8 : FVec F S_ .f32 := constant S_ .f32 0x7F800000#32
  let main_v25 : FVec F S23x512 .f32 := broadcastInDim S23x512 ![] bcast_S_S23x512 main_cst_8
  let main_v26 : IVec S23x512 1 := cmpf .olt main_v24 main_v25
  let main_c_9 : IVec S_ 1 := constantI S_ 1 1#1
  let main_v27 : IVec S_ 1 := (fun x v => Host.reduce IntOp.andi x v reducesTo_S23x512_S_d0_1 h_S_) main_v26 main_c_9
  let main_v28 : IVec S_ 1 := andi main_v23 main_v27
  let main_v29 : FVec F S23x512 .f32 := Host.absf main_arg6
  let main_cst_10 : FVec F S_ .f32 := constant S_ .f32 0x7F800000#32
  let main_v30 : FVec F S23x512 .f32 := broadcastInDim S23x512 ![] bcast_S_S23x512 main_cst_10
  let main_v31 : IVec S23x512 1 := cmpf .olt main_v29 main_v30
  let main_c_11 : IVec S_ 1 := constantI S_ 1 1#1
  let main_v32 : IVec S_ 1 := (fun x v => Host.reduce IntOp.andi x v reducesTo_S23x512_S_d0_1 h_S_) main_v31 main_c_11
  let main_v33 : IVec S_ 1 := andi main_v28 main_v32
  main_v33

def fn {F : FTy → Type} [FloatOps F] (main_arg0 : FVec F S8192x39 .f32) (main_arg1 : FVec F S512x9 .f32) (main_arg2 : FVec F S512 .f32) (main_arg3 : FVec F S512x7 .f32) (main_arg4 : FVec F S512 .f32) (main_arg5 : FVec F S23x512 .f32) (main_arg6 : FVec F S23x512 .f32) : IVec S_ 1 :=
  let main_v0 : FVec F S8192x39 .f32 := Host.absf main_arg0
  let main_cst : FVec F S_ .f32 := constant S_ .f32 0x7F800000#32
  let main_v1 : FVec F S8192x39 .f32 := broadcastInDim S8192x39 ![] bcast_S_S8192x39 main_cst
  let main_v2 : IVec S8192x39 1 := cmpf .olt main_v0 main_v1
  let main_c : IVec S_ 1 := constantI S_ 1 1#1
  let main_v3 : IVec S_ 1 := (fun x v => Host.reduce IntOp.andi x v reducesTo_S8192x39_S_d0_1 h_S_) main_v2 main_c
  let main_v4 : FVec F S512x9 .f32 := Host.absf main_arg1
  let main_cst_0 : FVec F S_ .f32 := constant S_ .f32 0x7F800000#32
  let main_v5 : FVec F S512x9 .f32 := broadcastInDim S512x9 ![] bcast_S_S512x9 main_cst_0
  let main_v6 : IVec S512x9 1 := cmpf .olt main_v4 main_v5
  let main_c_1 : IVec S_ 1 := constantI S_ 1 1#1
  let main_v7 : IVec S_ 1 := (fun x v => Host.reduce IntOp.andi x v reducesTo_S512x9_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x7 .f32 := Host.absf main_arg3
  let main_cst_4 : FVec F S_ .f32 := constant S_ .f32 0x7F800000#32
  let main_v15 : FVec F S512x7 .f32 := broadcastInDim S512x7 ![] bcast_S_S512x7 main_cst_4
  let main_v16 : IVec S512x7 1 := cmpf .olt main_v14 main_v15
  fn_part1 (F := F) main_arg4 main_arg5 main_arg6 main_v13 main_v16
-- ==== Kernel.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S39x9 : Shape := ⟨2, ![39, 9]⟩
abbrev S39x7 : Shape := ⟨2, ![39, 7]⟩
abbrev S39x23 : Shape := ⟨2, ![39, 23]⟩
abbrev S23x25 : Shape := ⟨2, ![23, 25]⟩
abbrev S9x512 : Shape := ⟨2, ![9, 512]⟩
abbrev S39x512 : Shape := ⟨2, ![39, 512]⟩
abbrev S7x512 : Shape := ⟨2, ![7, 512]⟩
abbrev S23x25x1 : Shape := ⟨3, ![23, 25, 1]⟩
abbrev S23x1x512 : Shape := ⟨3, ![23, 1, 512]⟩
abbrev S23x25x512 : Shape := ⟨3, ![23, 25, 512]⟩
abbrev S23x12800 : Shape := ⟨2, ![23, 12800]⟩
abbrev S39x12800 : Shape := ⟨2, ![39, 12800]⟩
abbrev S_ : Shape := ⟨0, ![]⟩
abbrev S1 : Shape := ⟨1, ![1]⟩
abbrev S25x23 : Shape := ⟨2, ![25, 23]⟩
abbrev S25x512 : Shape := ⟨2, ![25, 512]⟩
abbrev S12800 : Shape := ⟨1, ![12800]⟩
abbrev S1x12800 : Shape := ⟨2, ![1, 12800]⟩
abbrev S8192x12800 : Shape := ⟨2, ![8192, 12800]⟩
abbrev S256x39 : Shape := ⟨2, ![256, 39]⟩
abbrev S256x12800 : Shape := ⟨2, ![256, 12800]⟩
abbrev S8192x25x512 : Shape := ⟨3, ![8192, 25, 512]⟩

abbrev nBuf : Space → Nat
  | .hbm => 40
  | .vmem => 6
  | .smem => 0
  | _ => 0

abbrev bufTy : (tb : Table) → Fin (tcTables nBuf tb) → BufTy
  | .hbm, ⟨0, _⟩ => ⟨S8192x39, .f32⟩
  | .hbm, ⟨1, _⟩ => ⟨S512x9, .f32⟩
  | .hbm, ⟨2, _⟩ => ⟨S512, .f32⟩
  | .hbm, ⟨3, _⟩ => ⟨S512x7, .f32⟩
  | .hbm, ⟨4, _⟩ => ⟨S512, .f32⟩
  | .hbm, ⟨5, _⟩ => ⟨S23x512, .f32⟩
  | .hbm, ⟨6, _⟩ => ⟨S23x512, .f32⟩
  | .hbm, ⟨7, _⟩ => ⟨S39x9, .f32⟩
  | .hbm, ⟨8, _⟩ => ⟨S39x7, .f32⟩
  | .hbm, ⟨9, _⟩ => ⟨S39x23, .f32⟩
  | .hbm, ⟨10, _⟩ => ⟨S23x25, .f32⟩
  | .hbm, ⟨11, _⟩ => ⟨S9x512, .f32⟩
  | .hbm, ⟨12, _⟩ => ⟨S39x512, .f32⟩
  | .hbm, ⟨13, _⟩ => ⟨S7x512, .f32⟩
  | .hbm, ⟨14, _⟩ => ⟨S39x512, .f32⟩
  | .hbm, ⟨15, _⟩ => ⟨S23x25x1, .f32⟩
  | .hbm, ⟨16, _⟩ => ⟨S23x1x512, .f32⟩
  | .hbm, ⟨17, _⟩ => ⟨S23x25x512, .f32⟩
  | .hbm, ⟨18, _⟩ => ⟨S23x25x512, .f32⟩
  | .hbm, ⟨19, _⟩ => ⟨S23x25x512, .f32⟩
  | .hbm, ⟨20, _⟩ => ⟨S23x12800, .f32⟩
  | .hbm, ⟨21, _⟩ => ⟨S39x12800, .f32⟩
  | .hbm, ⟨22, _⟩ => ⟨S_, .i32⟩
  | .hbm, ⟨23, _⟩ => ⟨S1, .i32⟩
  | .hbm, ⟨24, _⟩ => ⟨S39x12800, .f32⟩
  | .hbm, ⟨25, _⟩ => ⟨S_, .i32⟩
  | .hbm, ⟨26, _⟩ => ⟨S1, .i32⟩
  | .hbm, ⟨27, _⟩ => ⟨S39x12800, .f32⟩
  | .hbm, ⟨28, _⟩ => ⟨S25x23, .f32⟩
  | .hbm, ⟨29, _⟩ => ⟨S25x512, .f32⟩
  | .hbm, ⟨30, _⟩ => ⟨S_, .i32⟩
  | .hbm, ⟨31, _⟩ => ⟨S1, .i32⟩
  | .hbm, ⟨32, _⟩ => ⟨S25x512, .f32⟩
  | .hbm, ⟨33, _⟩ => ⟨S_, .i32⟩
  | .hbm, ⟨34, _⟩ => ⟨S1, .i32⟩
  | .hbm, ⟨35, _⟩ => ⟨S25x512, .f32⟩
  | .hbm, ⟨36, _⟩ => ⟨S12800, .f32⟩
  | .hbm, ⟨37, _⟩ => ⟨S1x12800, .f32⟩
  | .hbm, ⟨38, _⟩ => ⟨S8192x12800, .f32⟩
  | .hbm, ⟨39, _⟩ => ⟨S8192x25x512, .f32⟩
  | .local _ .vmem, ⟨0, _⟩ => ⟨S256x39, .f32⟩
  | .local _ .vmem, ⟨1, _⟩ => ⟨S256x39, .f32⟩
  | .local _ .vmem, ⟨2, _⟩ => ⟨S39x12800, .f32⟩
  | .local _ .vmem, ⟨3, _⟩ => ⟨S1x12800, .f32⟩
  | .local _ .vmem, ⟨4, _⟩ => ⟨S256x12800, .f32⟩
  | .local _ .vmem, ⟨5, _⟩ => ⟨S256x12800, .f32⟩
  | _, _ => ⟨S8192x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x9_S9x512_1_0 : S512x9.Transposes [1, 0] S9x512
  transposes_S512x7_S7x512_1_0 : S512x7.Transposes [1, 0] S7x512
  bcast_S23x25_S23x25x1_0_1 : S23x25.BroadcastsInDim S23x25x1 (![0, 1] : Fin 2 → Fin S23x25x1.rank)
  bcast_S23x512_S23x1x512_0_2 : S23x512.BroadcastsInDim S23x1x512 (![0, 2] : Fin 2 → Fin S23x1x512.rank)
  bcast_S23x25x1_S23x25x512_0_1_2 : S23x25x1.BroadcastsInDim S23x25x512 (![0, 1, 2] : Fin 3 → Fin S23x25x512.rank)
  bcast_S23x1x512_S23x25x512_0_1_2 : S23x1x512.BroadcastsInDim S23x25x512 (![0, 1, 2] : Fin 3 → Fin S23x25x512.rank)
  shapeCasts_S23x25x512_S23x12800 : S23x25x512.ShapeCasts S23x12800
  bcast_S_S1 : S_.BroadcastsInDim S1 (![] : Fin 0 → Fin S1.rank)
  transposes_S23x25_S25x23_1_0 : S23x25.Transposes [1, 0] S25x23
  shapeCasts_S25x512_S12800 : S25x512.ShapeCasts S12800
  shapeCasts_S12800_S1x12800 : S12800.ShapeCasts S1x12800
  inb_S256x39_S256x39_0_0 : ∀ a, (![0, 0] : Fin 2 → Nat) a + S256x39.size a ≤ S256x39.size a
  h_S256x39 : 0 < S256x39.numel
  inb_S39x12800_S39x12800_0_0 : ∀ a, (![0, 0] : Fin 2 → Nat) a + S39x12800.size a ≤ S39x12800.size a
  h_S39x12800 : 0 < S39x12800.numel
  shapeCasts_S39x12800_S39x12800 : S39x12800.ShapeCasts S39x12800
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  broadcasts_S1x12800_S256x12800 : S1x12800.Broadcasts S256x12800
  inb_S256x12800_S256x12800_0_0 : ∀ a, (![0, 0] : Fin 2 → Nat) a + S256x12800.size a ≤ S256x12800.size a
  h_S256x12800 : 0 < S256x12800.numel
  shapeCasts_S8192x12800_S8192x25x512 : S8192x12800.ShapeCasts S8192x25x512
  dot_S39x9_S9x512_S39x512_1_0_0_1_n_n_wf : DotDims.WF S39x9 S9x512 S39x512 [1] [0] [0] [1] [] []
  dot_S39x7_S7x512_S39x512_1_0_0_1_n_n_wf : DotDims.WF S39x7 S7x512 S39x512 [1] [0] [0] [1] [] []
  dot_S39x23_S23x12800_S39x12800_1_0_0_1_n_n_wf : DotDims.WF S39x23 S23x12800 S39x12800 [1] [0] [0] [1] [] []
  scatter_S39x12800_S1_S39x512_01_n_1_0_wf : ScatterDims.WF S39x12800 S1 S39x512 [0, 1] [] [1] 0
  dot_S25x23_S23x512_S25x512_1_0_0_1_n_n_wf : DotDims.WF S25x23 S23x512 S25x512 [1] [0] [0] [1] [] []
  scatter_S25x512_S1_S512_0_0_0_0_wf : ScatterDims.WF S25x512 S1 S512 [0] [0] [0] 0
  dot_S256x39_S39x12800_S256x12800_1_0_0_1_n_n_wf : DotDims.WF S256x39 S39x12800 S256x12800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x39.size a ≤ S8192x39.size a
  hwx0_0 : ∀ i : grid0.Coords, EltTy.bits .f32 = 32 ∨ (Rect.block (s := S8192x39) S256x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x12800.size a ≤ S39x12800.size a
  hwx0_1 : ∀ i : grid0.Coords, EltTy.bits .f32 = 32 ∨ (Rect.block (s := S39x12800) S39x12800.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12800.size a ≤ S1x12800.size a
  hwx0_2 : ∀ i : grid0.Coords, EltTy.bits .f32 = 32 ∨ (Rect.block (s := S1x12800) S1x12800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x12800.size a ≤ S8192x12800.size a
  hwx0_3 : ∀ i : grid0.Coords, EltTy.bits .f32 = 32 ∨ (Rect.block (s := S8192x12800) S256x12800.size (cc0_transform_3 i) (hinb0_3 i)).WholeWords (EltTy.packing .f32)

variable [Facts₀]

def dot_S39x9_S9x512_S39x512_1_0_0_1_n_n : DotDims S39x9 S9x512 S39x512 where
  lhsContracting := [1]
  rhsContracting := [0]
  lhsNonContracting := [0]
  rhsNonContracting := [1]
  lhsBatch := []
  rhsBatch := []
  wf := dot_S39x9_S9x512_S39x512_1_0_0_1_n_n_wf
def dot_S39x7_S7x512_S39x512_1_0_0_1_n_n : DotDims S39x7 S7x512 S39x512 where
  lhsContracting := [1]
  rhsContracting := [0]
  lhsNonContracting := [0]
  rhsNonContracting := [1]
  lhsBatch := []
  rhsBatch := []
  wf := dot_S39x7_S7x512_S39x512_1_0_0_1_n_n_wf
def dot_S39x23_S23x12800_S39x12800_1_0_0_1_n_n : DotDims S39x23 S23x12800 S39x12800 where
  lhsContracting := [1]
  rhsContracting := [0]
  lhsNonContracting := [0]
  rhsNonContracting := [1]
  lhsBatch := []
  rhsBatch := []
  wf := dot_S39x23_S23x12800_S39x12800_1_0_0_1_n_n_wf
def scatter_S39x12800_S1_S39x512_01_n_1_0 : ScatterDims S39x12800 S1 S39x512 where
  updateWindowDims := [0, 1]
  insertedWindowDims := []
  scatterDimsToOperandDims := [1]
  indexVectorDim := 0
  wf := scatter_S39x12800_S1_S39x512_01_n_1_0_wf
def dot_S25x23_S23x512_S25x512_1_0_0_1_n_n : DotDims S25x23 S23x512 S25x512 where
  lhsContracting := [1]
  rhsContracting := [0]
  lhsNonContracting := [0]
  rhsNonContracting := [1]
  lhsBatch := []
  rhsBatch := []
  wf := dot_S25x23_S23x512_S25x512_1_0_0_1_n_n_wf
def scatter_S25x512_S1_S512_0_0_0_0 : ScatterDims S25x512 S1 S512 where
  updateWindowDims := [0]
  insertedWindowDims := [0]
  scatterDimsToOperandDims := [0]
  indexVectorDim := 0
  wf := scatter_S25x512_S1_S512_0_0_0_0_wf
def dot_S256x39_S39x12800_S256x12800_1_0_0_1_n_n : DotDims S256x39 S39x12800 S256x12800 where
  lhsContracting := [1]
  rhsContracting := [0]
  lhsNonContracting := [0]
  rhsNonContracting := [1]
  lhsBatch := []
  rhsBatch := []
  wf := dot_S256x39_S39x12800_S256x12800_1_0_0_1_n_n_wf

abbrev win0_0 : Pipeline.Window sig grid0 :=
  Pipeline.Window.ofSpec (Memref.whole main_arg0) S256x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S39x12800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x12800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x12800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S9 : Shape := ⟨1, ![9]⟩
abbrev S7 : Shape := ⟨1, ![7]⟩
abbrev S23 : Shape := ⟨1, ![23]⟩
abbrev S_ : Shape := ⟨0, ![]⟩
abbrev S9x1 : Shape := ⟨2, ![9, 1]⟩
abbrev S8192x9 : Shape := ⟨2, ![8192, 9]⟩
abbrev S9x512 : Shape := ⟨2, ![9, 512]⟩
abbrev S8192x512 : Shape := ⟨2, ![8192, 512]⟩
abbrev S1x512 : Shape := ⟨2, ![1, 512]⟩
abbrev S7x1 : Shape := ⟨2, ![7, 1]⟩
abbrev S8192x7 : Shape := ⟨2, ![8192, 7]⟩
abbrev S7x512 : Shape := ⟨2, ![7, 512]⟩
abbrev S23x1 : Shape := ⟨2, ![23, 1]⟩
abbrev S8192x23 : Shape := ⟨2, ![8192, 23]⟩
abbrev S8192x23x1 : Shape := ⟨3, ![8192, 23, 1]⟩
abbrev S1x23x512 : Shape := ⟨3, ![1, 23, 512]⟩
abbrev S8192x23x512 : Shape := ⟨3, ![8192, 23, 512]⟩
abbrev S8192x1x512 : Shape := ⟨3, ![8192, 1, 512]⟩
abbrev S8192x22x512 : Shape := ⟨3, ![8192, 22, 512]⟩
abbrev S8192x25x512 : Shape := ⟨3, ![8192, 25, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x39, .f32⟩
  | .hbm, ⟨1, _⟩ => ⟨S512x9, .f32⟩
  | .hbm, ⟨2, _⟩ => ⟨S512, .f32⟩
  | .hbm, ⟨3, _⟩ => ⟨S512x7, .f32⟩
  | .hbm, ⟨4, _⟩ => ⟨S512, .f32⟩
  | .hbm, ⟨5, _⟩ => ⟨S23x512, .f32⟩
  | .hbm, ⟨6, _⟩ => ⟨S23x512, .f32⟩
  | .hbm, ⟨7, _⟩ => ⟨S9, .i32⟩
  | .hbm, ⟨8, _⟩ => ⟨S9, .i1⟩
  | .hbm, ⟨9, _⟩ => ⟨S7, .i32⟩
  | .hbm, ⟨10, _⟩ => ⟨S7, .i1⟩
  | .hbm, ⟨11, _⟩ => ⟨S23, .i32⟩
  | .hbm, ⟨12, _⟩ => ⟨S23, .i1⟩
  | .hbm, ⟨13, _⟩ => ⟨S_, .i32⟩
  | .hbm, ⟨14, _⟩ => ⟨S9, .i32⟩
  | .hbm, ⟨15, _⟩ => ⟨S9, .i32⟩
  | .hbm, ⟨16, _⟩ => ⟨S9, .i32⟩
  | .hbm, ⟨17, _⟩ => ⟨S9x1, .i32⟩
  | .hbm, ⟨18, _⟩ => ⟨S8192x9, .f32⟩
  | .hbm, ⟨19, _⟩ => ⟨S9x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S_, .i32⟩
  | .hbm, ⟨25, _⟩ => ⟨S7, .i32⟩
  | .hbm, ⟨26, _⟩ => ⟨S7, .i32⟩
  | .hbm, ⟨27, _⟩ => ⟨S7, .i32⟩
  | .hbm, ⟨28, _⟩ => ⟨S7x1, .i32⟩
  | .hbm, ⟨29, _⟩ => ⟨S8192x7, .f32⟩
  | .hbm, ⟨30, _⟩ => ⟨S7x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S_, .i32⟩
  | .hbm, ⟨36, _⟩ => ⟨S23, .i32⟩
  | .hbm, ⟨37, _⟩ => ⟨S23, .i32⟩
  | .hbm, ⟨38, _⟩ => ⟨S23, .i32⟩
  | .hbm, ⟨39, _⟩ => ⟨S23x1, .i32⟩
  | .hbm, ⟨40, _⟩ => ⟨S8192x23, .f32⟩
  | .hbm, ⟨41, _⟩ => ⟨S8192x23x1, .f32⟩
  | .hbm, ⟨42, _⟩ => ⟨S1x23x512, .f32⟩
  | .hbm, ⟨43, _⟩ => ⟨S8192x23x512, .f32⟩
  | .hbm, ⟨44, _⟩ => ⟨S8192x23x512, .f32⟩
  | .hbm, ⟨45, _⟩ => ⟨S8192x23x512, .f32⟩
  | .hbm, ⟨46, _⟩ => ⟨S1x23x512, .f32⟩
  | .hbm, ⟨47, _⟩ => ⟨S8192x23x512, .f32⟩
  | .hbm, ⟨48, _⟩ => ⟨S8192x23x512, .f32⟩
  | .hbm, ⟨49, _⟩ => ⟨S8192x1x512, .f32⟩
  | .hbm, ⟨50, _⟩ => ⟨S8192x1x512, .f32⟩
  | .hbm, ⟨51, _⟩ => ⟨S8192x1x512, .f32⟩
  | .hbm, ⟨52, _⟩ => ⟨S8192x22x512, .f32⟩
  | .hbm, ⟨53, _⟩ => ⟨S8192x25x512, .f32⟩
  | _, _ => ⟨S8192x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_6 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S9_S9x1_0 : S9.BroadcastsInDim S9x1 (![0] : Fin 1 → Fin S9x1.rank)
  transposes_S512x9_S9x512_1_0 : S512x9.Transposes [1, 0] S9x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S7 : S_.BroadcastsInDim S7 (![] : Fin 0 → Fin S7.rank)
  bcast_S7_S7x1_0 : S7.BroadcastsInDim S7x1 (![0] : Fin 1 → Fin S7x1.rank)
  transposes_S512x7_S7x512_1_0 : S512x7.Transposes [1, 0] S7x512
  bcast_S_S23 : S_.BroadcastsInDim S23 (![] : Fin 0 → Fin S23.rank)
  bcast_S23_S23x1_0 : S23.BroadcastsInDim S23x1 (![0] : Fin 1 → Fin S23x1.rank)
  bcast_S8192x23_S8192x23x1_0_1 : S8192x23.BroadcastsInDim S8192x23x1 (![0, 1] : Fin 2 → Fin S8192x23x1.rank)
  bcast_S23x512_S1x23x512_1_2 : S23x512.BroadcastsInDim S1x23x512 (![1, 2] : Fin 2 → Fin S1x23x512.rank)
  bcast_S8192x23x1_S8192x23x512_0_1_2 : S8192x23x1.BroadcastsInDim S8192x23x512 (![0, 1, 2] : Fin 3 → Fin S8192x23x512.rank)
  bcast_S1x23x512_S8192x23x512_0_1_2 : S1x23x512.BroadcastsInDim S8192x23x512 (![0, 1, 2] : Fin 3 → Fin S8192x23x512.rank)
  bcast_S8192x512_S8192x1x512_0_2 : S8192x512.BroadcastsInDim S8192x1x512 (![0, 2] : Fin 2 → Fin S8192x1x512.rank)
  slices_S8192x23x512_S8192x1x512_0_0_0 : S8192x23x512.Slices ![0, 0, 0] S8192x1x512
  slices_S8192x23x512_S8192x22x512_0_1_0 : S8192x23x512.Slices ![0, 1, 0] S8192x22x512
  concatenates_S8192x1x512_S8192x1x512_S8192x1x512_S8192x22x512_S8192x25x512_d1 : Shape.Concatenates [S8192x1x512, S8192x1x512, S8192x1x512, S8192x22x512] S8192x25x512 1
  gather_S8192x39_S9x1_S8192x9_0_1_n_n_1_1_81921_wf : GatherDims.WF S8192x39 S9x1 S8192x9 [0] [1] [] [1] [] 1 ![8192, 1]
  dot_S8192x9_S9x512_S8192x512_1_0_0_1_n_n_wf : DotDims.WF S8192x9 S9x512 S8192x512 [1] [0] [0] [1] [] []
  gather_S8192x39_S7x1_S8192x7_0_1_n_n_1_1_81921_wf : GatherDims.WF S8192x39 S7x1 S8192x7 [0] [1] [] [1] [] 1 ![8192, 1]
  dot_S8192x7_S7x512_S8192x512_1_0_0_1_n_n_wf : DotDims.WF S8192x7 S7x512 S8192x512 [1] [0] [0] [1] [] []
  gather_S8192x39_S23x1_S8192x23_0_1_n_n_1_1_81921_wf : GatherDims.WF S8192x39 S23x1 S8192x23 [0] [1] [] [1] [] 1 ![8192, 1]

variable [Facts₀]

def gather_S8192x39_S9x1_S8192x9_0_1_n_n_1_1_81921 : GatherDims S8192x39 S9x1 S8192x9 where
  offsetDims := [0]
  collapsedSliceDims := [1]
  operandBatchingDims := []
  startIndicesBatchingDims := []
  startIndexMap := [1]
  indexVectorDim := 1
  sliceSizes := ![8192, 1]
  wf := gather_S8192x39_S9x1_S8192x9_0_1_n_n_1_1_81921_wf
def dot_S8192x9_S9x512_S8192x512_1_0_0_1_n_n : DotDims S8192x9 S9x512 S8192x512 where
  lhsContracting := [1]
  rhsContracting := [0]
  lhsNonContracting := [0]
  rhsNonContracting := [1]
  lhsBatch := []
  rhsBatch := []
  wf := dot_S8192x9_S9x512_S8192x512_1_0_0_1_n_n_wf
def gather_S8192x39_S7x1_S8192x7_0_1_n_n_1_1_81921 : GatherDims S8192x39 S7x1 S8192x7 where
  offsetDims := [0]
  collapsedSliceDims := [1]
  operandBatchingDims := []
  startIndicesBatchingDims := []
  startIndexMap := [1]
  indexVectorDim := 1
  sliceSizes := ![8192, 1]
  wf := gather_S8192x39_S7x1_S8192x7_0_1_n_n_1_1_81921_wf
def dot_S8192x7_S7x512_S8192x512_1_0_0_1_n_n : DotDims S8192x7 S7x512 S8192x512 where
  lhsContracting := [1]
  rhsContracting := [0]
  lhsNonContracting := [0]
  rhsNonContracting := [1]
  lhsBatch := []
  rhsBatch := []
  wf := dot_S8192x7_S7x512_S8192x512_1_0_0_1_n_n_wf
def gather_S8192x39_S23x1_S8192x23_0_1_n_n_1_1_81921 : GatherDims S8192x39 S23x1 S8192x23 where
  offsetDims := [0]
  collapsedSliceDims := [1]
  operandBatchingDims := []
  startIndicesBatchingDims := []
  startIndexMap := [1]
  indexVectorDim := 1
  sliceSizes := ![8192, 1]
  wf := gather_S8192x39_S23x1_S8192x23_0_1_n_n_1_1_81921_wf

class Facts : Prop extends Facts₀ where

variable [Facts]
-- ==== Proof.KBody.lean ====
/-
  The kernel body's arithmetic read at one entry.  The body multiplies its 256-row block of the input by the whole
  combined weight (a matrix product accumulated into zero) and adds the combined bias row to every row; at row `r`
  and column `n` of the block that is the sum over the 39 input columns of input times weight, plus the bias at `n`.
-/
import proofs.«119597_j64269890618106_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's dimension record: rows × 39 times 39 × columns. -/
abbrev D : DotDims S256x39 S39x12800 S256x12800 := dot_S256x39_S39x12800_S256x12800_1_0_0_1_n_n

theorem lhs_0 (i : S256x12800.Idx) (q : D.contr.Idx) : (D.lhsIdx i q 0).val = (i 0).val := by
  unfold DotDims.lhsIdx
  rw [dif_neg (show ¬(0 : Fin S256x39.rank) ∈ D.lhsBatch by decide),
    dif_pos (show (0 : Fin S256x39.rank) ∈ D.lhsNonContracting by decide)]
  rfl
theorem lhs_1 (i : S256x12800.Idx) (q : D.contr.Idx) : (D.lhsIdx i q 1).val = (q ⟨0, by decide⟩).val :=
  D.lhsIdx_val_of_single rfl i q
theorem rhs_0 (i : S256x12800.Idx) (q : D.contr.Idx) : (D.rhsIdx i q 0).val = (q ⟨0, by decide⟩).val :=
  D.rhsIdx_val_of_single rfl i q
theorem rhs_1 (i : S256x12800.Idx) (q : D.contr.Idx) : (D.rhsIdx i q 1).val = (i 1).val := by
  unfold DotDims.rhsIdx
  rw [dif_neg (show ¬(1 : Fin S39x12800.rank) ∈ D.rhsBatch by decide),
    dif_pos (show (1 : Fin S39x12800.rank) ∈ D.rhsNonContracting by decide)]
  rfl

/-- The block product at (`r`, `n`): the sum over the contracted axis of row `r` of the left block times column `n` of
    the right one. -/
theorem matmul_at (x0 : FVec Ideal S256x39 .f32) (x1 : FVec Ideal S39x12800 .f32) (r : Fin 256) (n : Fin 12800) :
    matmul D (some .fp32) x0 x1 (constant S256x12800 .f32 0x00000000#32) (ix2 r n)
      = ∑ k : Fin 39, x0 (ix2 r k) * x1 (ix2 k n) := by
  simp only [matmul]
  rw [Ideal.matmul_constant_zero_apply, ← Equiv.sum_comp (contrEquiv1 D 39 rfl rfl).symm]
  refine Finset.sum_congr rfl fun k _ => ?_
  have hk := contrEquiv1_symm_val D 39 rfl rfl k
  have el : D.lhsIdx (ix2 r n) ((contrEquiv1 D 39 rfl rfl).symm k) = ix2 r k := funext fun a => Fin.ext (by
    match a with
    | ⟨0, _⟩ => exact lhs_0 _ _
    | ⟨1, _⟩ => exact (lhs_1 _ _).trans hk)
  have er : D.rhsIdx (ix2 r n) ((contrEquiv1 D 39 rfl rfl).symm k) = ix2 k n := funext fun a => Fin.ext (by
    match a with
    | ⟨0, _⟩ => exact (rhs_0 _ _).trans hk
    | ⟨1, _⟩ => exact rhs_1 _ _)
  rw [el, er]

/-- THE PAYLOAD AT AN ENTRY: what the body stores at row `r`, column `n` of its output block. -/
theorem pay_apply (x0 : Vec Ideal S256x39 .f32) (x1 : Vec Ideal S39x12800 .f32) (x3 : Vec Ideal S1x12800 .f32)
    (r : Fin 256) (n : Fin 12800) :
    k0_pay1 x0 x1 x3 (ix2 r n) = (∑ k : Fin 39, x0 (ix2 r k) * x1 (ix2 k n)) + x3 (ix2 (0 : Fin 1) n) := by
  unfold k0_pay1
  rw [shapeCast_self, shapeCast_self, addf_apply, broadcastTo_1b_ab_apply]
  exact congrArg (· + x3 (ix2 (0 : Fin 1) n)) (matmul_at x0 x1 r n)

end Cert.KernelIdeal.Body

end
-- ==== Proof.KBlocks.lean ====
/-
  From blocks to the whole array.  The grid has 32 points; point `t` multiplies rows `256 t … 256 t + 255` of the
  input by the whole combined weight, adds the combined bias, and writes the result back as rows `256 t … 256 t + 255`
  of the output.  The 32 row blocks tile the 8192 rows, so after the run the output array is ONE function of the three
  arrays the region reads: at row `b` and column `n`, the sum over the 39 input columns of input times weight, plus bias.
-/
import proofs.«119597_j64269890618106_2_alg».proof.Proof.Gen.KernelIdeal.Frame
import proofs.«119597_j64269890618106_2_alg».proof.Proof.KBody
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The dense product of an input array with a weight array plus a bias row, entry by entry. -/
def Hfun (X : S8192x39.Idx → EReal) (W : S39x12800.Idx → EReal) (B : S1x12800.Idx → EReal) : S8192x12800.Idx → EReal :=
  fun i => (∑ k : Fin 39, X (ix2 (i 0) k) * W (ix2 k (i 1))) + B (ix2 (0 : Fin 1) (i 1))

theorem hz : (![0, 0] : Fin 2 → Nat) = fun _ => 0 := funext fun a => by fin_cases a <;> rfl

theorem lt32 (t : Fin cfg0.N) : t.val < 32 := Nat.lt_of_lt_of_eq t.isLt N_0

/-- Row `r` of point `t`'s block is row `256 t + r` of the array. -/
def row (t : Fin cfg0.N) (r : Fin 256) : Fin 8192 := ⟨t.val * 256 + r.val, by have := lt32 t; omega⟩

/-- The printed index maps over the grid: the input and output blocks move down the rows with the point, the weight
    and the bias stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t`, read at (`r`, `k`). -/
theorem iblk0_apply (c : Dev nD) (t : Fin cfg0.N) (r : Fin 256) (k : Fin 39) :
    (iblk m c 0 t : S256x39.Idx → EReal) (ix2 r k) = (V m c main_arg0 : S8192x39.Idx → EReal) (ix2 (row t r) k) := by
  obtain ⟨e0, e1, -⟩ := idx_facts t
  unfold iblk
  rw [View.read_apply]
  show (V m c main_arg0 : S8192x39.Idx → EReal) _ = (V m c main_arg0 : S8192x39.Idx → EReal) _
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 39 + 1 * k.val = k.val; rw [e1]; omega

/-- The weight block is the whole weight array at every point. -/
theorem iblk1_apply (c : Dev nD) (t : Fin cfg0.N) (k : Fin 39) (n : Fin 12800) :
    (iblk m c 1 t : S39x12800.Idx → EReal) (ix2 k n) = (V m c main_v14 : S39x12800.Idx → EReal) (ix2 k n) := by
  obtain ⟨-, -, e0, e1, -⟩ := idx_facts t
  unfold iblk
  rw [View.read_apply]
  show (V m c main_v14 : S39x12800.Idx → EReal) _ = (V m c main_v14 : S39x12800.Idx → EReal) _
  refine congrArg _ (funext fun a => Fin.ext ?_)
  match a with
  | ⟨0, _⟩ => show win0_1.index t (0 : Fin 2) * 39 + 1 * k.val = k.val; rw [e0]; omega
  | ⟨1, _⟩ => show win0_1.index t (1 : Fin 2) * 12800 + 1 * n.val = n.val; rw [e1]; omega

/-- The bias block is the whole bias row at every point. -/
theorem iblk2_apply (c : Dev nD) (t : Fin cfg0.N) (n : Fin 12800) :
    (iblk m c 2 t : S1x12800.Idx → EReal) (ix2 (0 : Fin 1) n) = (V m c main_v22 : S1x12800.Idx → EReal) (ix2 (0 : Fin 1) n) := by
  obtain ⟨-, -, -, -, e0, e1, -⟩ := idx_facts t
  unfold iblk
  rw [View.read_apply]
  show (V m c main_v22 : S1x12800.Idx → EReal) _ = (V m c main_v22 : S1x12800.Idx → EReal) _
  refine congrArg _ (funext fun a => Fin.ext ?_)
  match a with
  | ⟨0, _⟩ => show win0_2.index t (0 : Fin 2) * 1 + 1 * 0 = 0; rw [e0]
  | ⟨1, _⟩ => show win0_2.index t (1 : Fin 2) * 12800 + 1 * n.val = n.val; rw [e1]; omega

/-- Entry (`r`, `n`) of the output block at point `t` sits at (`256 t + r`, `n`) of the output array. -/
theorem emb3 (t : Fin cfg0.N) (r : Fin 256) (n : Fin 12800) :
    ((cfg0.win 3).blk t).view.emb (ix2 r n) = (ix2 (row t r) n : S8192x12800.Idx) := by
  obtain ⟨-, -, -, -, -, -, e0, e1⟩ := idx_facts t
  refine funext fun a => Fin.ext ?_
  match a with
  | ⟨0, _⟩ => show win0_3.index t (0 : Fin 2) * 256 + 1 * r.val = t.val * 256 + r.val; rw [e0]; omega
  | ⟨1, _⟩ => show win0_3.index t (1 : Fin 2) * 12800 + 1 * n.val = n.val; rw [e1]; omega

/-- WHAT POINT `t` WRITES BACK is block `t` of the dense product of the arrays the region reads. -/
theorem flushed3_eq (c : Dev nD) (t : Fin cfg0.N) :
    (dats m 0 c).flushed 3 t = ((cfg0.win 3).blk t).view.read (Elt Ideal)
      (Hfun (V m c main_arg0) (V m c main_v14) (V m c main_v22)) := by
  show (cfg0.win 3).cut (grid0.coords t) ((dats m 0 c).after 3 t) = _
  rw [after0_3]
  unfold out0_3
  rw [View.canon_unit_zero hz]
  simp only [View.ld_unit_zero (S := S256x39) hz, View.ld_unit_zero (S := S39x12800) hz, View.ld_unit_zero (S := S1x12800) hz]
  funext j
  obtain ⟨r, n, rfl⟩ : ∃ (r : Fin 256) (n : Fin 12800), j = ix2 r n := ⟨j 0, j 1, eq_ix2 j⟩
  show k0_pay1 (iblk m c 0 t) (iblk m c 1 t) (iblk m c 2 t) (ix2 r n)
    = Hfun (V m c main_arg0) (V m c main_v14) (V m c main_v22) (((cfg0.win 3).blk t).view.emb (ix2 r n))
  rw [emb3 t r n]
  refine (Body.pay_apply _ _ _ r n).trans ?_
  unfold Hfun
  rw [iblk2_apply m c t n]
  refine congrArg (· + _) (Finset.sum_congr rfl fun k _ => ?_)
  rw [iblk0_apply m c t r k, iblk1_apply m c t k n]

/-- An index of the output array is in point `t`'s block iff each coordinate is in the block's range on its axis. -/
theorem mem_blk3 (t : Fin cfg0.N) (i : S8192x12800.Idx) :
    i ∈ ((cfg0.win 3).blk t).view.set ↔ ∀ a : Fin 2, win0_3.index t a * S256x12800.size a ≤ (i a).val
      ∧ (i a).val < win0_3.index t a * S256x12800.size a + S256x12800.size a := by
  show i ∈ ((View.whole main_v23).slice (win0_3.rect t)).set ↔ _
  rw [View.set_slice_whole, Rect.mem_set_unit]
  exact Iff.rfl

/-- Every entry of the output array is in some point's block: row `b` is written by point `b / 256`. -/
theorem cover3 (i : S8192x12800.Idx) : ∃ t : Fin cfg0.N, (cfg0.win 3).flush t = true ∧ i ∈ ((cfg0.win 3).blk t).view.set := by
  have hi0 : (i 0).val < 8192 := (i 0).isLt
  have hi1 : (i 1).val < 12800 := (i 1).isLt
  let t : Fin cfg0.N := ⟨(i 0).val / 256, (by omega : (i 0).val / 256 < 32).trans_eq N_0.symm⟩
  obtain ⟨-, -, -, -, -, -, e0, e1⟩ := idx_facts t
  have ht : t.val = (i 0).val / 256 := rfl
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 12800 ≤ (i 1).val ∧ (i 1).val < win0_3.index t (1 : Fin 2) * 12800 + 12800
    rw [e1]; omega

/-- THE OUTPUT ARRAY after the region: the dense product of the arrays the region reads. -/
theorem final3 (c : Dev nD) :
    (dats m 0 c).arrAt 3 cfg0.N = Hfun (V m c main_arg0) (V m c main_v14) (V m c main_v22) :=
  (dats m 0 c).arrAt_eq_of_cover 3 _ (fun t _ => flushed3_eq m c t) cover3

end Cert.KernelIdeal.Blocks

end
-- ==== Proof.Spec.lean ====
/-
  The specification shared by both sides of the certificate: twenty-five output tokens per batch row, each a
  512-vector.  Token 0 is the nine "forehand" columns of the input row times the forehand weight plus its bias,
  token 2 the seven "palm" columns times the palm weight plus its bias, and each of the remaining twenty-three
  tokens is ONE input column times one weight row plus one bias row (a rank-one product).  The kernel computes the
  same numbers as ONE dense product of the input row with a combined weight `Wc` assembled from the three
  weights by one-hot selector matrices, plus a combined bias `bc`; both are stated here entry by entry so that the
  two halves of the proof meet at these definitions.
-/
import Idealize.ShloMosaic.PureOps.Ideal
import Idealize.ShloMosaic.Lib.ValueIdx

noncomputable section

namespace Cert.Spec

open Idealize.ShloMosaic Idealize.ShloMosaic.ValueIdx

/-- The input columns the forehand token reads, in order. -/
def FORE : Fin 9 → Fin 39 := ![0, 1, 2, 27, 28, 32, 33, 34, 38]
/-- The input columns the palm token reads, in order. -/
def PALM : Fin 7 → Fin 39 := ![4, 29, 30, 31, 35, 36, 37]
/-- The input column single-feature sensor `j` reads: column 3 for sensor 0, column `j + 4` afterwards. -/
def SING (j : Fin 23) : Fin 39 := if j.val = 0 then ⟨3, by omega⟩ else ⟨j.val + 4, by omega⟩
/-- The token slot of single-feature sensor `j`: slot 1 for sensor 0, slot `j + 2` afterwards. -/
def TOK (j : Fin 23) : Fin 25 := if j.val = 0 then ⟨1, by omega⟩ else ⟨j.val + 2, by omega⟩
/-- The single-feature sensor that fills token slot `t` (for `t` other than 0 and 2). -/
def SENS (t : Fin 25) : Fin 23 := if t.val = 1 then ⟨0, by omega⟩ else ⟨t.val - 2, by omega⟩

/-- Column `512 t + d` of the flattened 12800-wide token axis. -/
def col (t : Fin 25) (d : Fin 512) : Fin 12800 := ⟨t.val * 512 + d.val, by omega⟩

/-- A one-hot entry: 1 where the two indices agree, 0 elsewhere. -/
def hot {ι : Type} [DecidableEq ι] (a b : ι) : EReal := if a = b then 1 else 0

abbrev SX : Shape := ⟨2, ![8192, 39]⟩
abbrev SWf : Shape := ⟨2, ![512, 9]⟩
abbrev SWp : Shape := ⟨2, ![512, 7]⟩
abbrev Sb : Shape := ⟨1, ![512]⟩
abbrev SWs : Shape := ⟨2, ![23, 512]⟩
abbrev SOut : Shape := ⟨3, ![8192, 25, 512]⟩

/-- The result at batch row `b`, token `t`, feature `d`. -/
def G (x : SX.Idx → EReal) (Wf : SWf.Idx → EReal) (bf : Sb.Idx → EReal) (Wp : SWp.Idx → EReal) (bp : Sb.Idx → EReal)
    (Ws bs : SWs.Idx → EReal) (b : Fin 8192) (t : Fin 25) (d : Fin 512) : EReal :=
  if t.val = 0 then (∑ j : Fin 9, x (ix2 b (FORE j)) * Wf (ix2 d j)) + bf (ix1 d)
  else if t.val = 2 then (∑ j : Fin 7, x (ix2 b (PALM j)) * Wp (ix2 d j)) + bp (ix1 d)
  else x (ix2 b (SING (SENS t))) * Ws (ix2 (SENS t) d) + bs (ix2 (SENS t) d)

/-- The whole result array. -/
def Gfun (x : SX.Idx → EReal) (Wf : SWf.Idx → EReal) (bf : Sb.Idx → EReal) (Wp : SWp.Idx → EReal) (bp : Sb.Idx → EReal)
    (Ws bs : SWs.Idx → EReal) : SOut.Idx → EReal :=
  fun i => G x Wf bf Wp bp Ws bs (i 0) (i 1) (i 2)

theorem Gfun_apply (x : SX.Idx → EReal) (Wf : SWf.Idx → EReal) (bf : Sb.Idx → EReal) (Wp : SWp.Idx → EReal) (bp : Sb.Idx → EReal)
    (Ws bs : SWs.Idx → EReal) (b : Fin 8192) (t : Fin 25) (d : Fin 512) :
    Gfun x Wf bf Wp bp Ws bs (ix3 b t d) = G x Wf bf Wp bp Ws bs b t d := rfl

/-- The single-sensor part of the combined weight at input column `k`, token `t`, feature `d`: sensor `j`'s weight
    row placed in its token slot and routed to its input column, summed over the sensors. -/
def WcSingle (Ws : SWs.Idx → EReal) (k : Fin 39) (t : Fin 25) (d : Fin 512) : EReal :=
  ∑ j : Fin 23, hot k (SING j) * (hot (TOK j) t * Ws (ix2 j d))

/-- The combined weight: the single-sensor part everywhere, with the forehand weight (routed to its nine columns)
    added in token 0 and the palm weight (routed to its seven columns) added in token 2. -/
def Wc (Wf : SWf.Idx → EReal) (Wp : SWp.Idx → EReal) (Ws : SWs.Idx → EReal) (k : Fin 39) (t : Fin 25) (d : Fin 512) : EReal :=
  if t.val = 0 then WcSingle Ws k t d + ∑ j : Fin 9, hot k (FORE j) * Wf (ix2 d j)
  else if t.val = 2 then WcSingle Ws k t d + ∑ j : Fin 7, hot k (PALM j) * Wp (ix2 d j)
  else WcSingle Ws k t d

/-- The combined bias: sensor `j`'s bias row placed in its token slot, with the forehand bias added in token 0 and
    the palm bias in token 2. -/
def bc (bf bp : Sb.Idx → EReal) (bs : SWs.Idx → EReal) (t : Fin 25) (d : Fin 512) : EReal :=
  if t.val = 0 then (∑ j : Fin 23, hot (TOK j) t * bs (ix2 j d)) + bf (ix1 d)
  else if t.val = 2 then (∑ j : Fin 23, hot (TOK j) t * bs (ix2 j d)) + bp (ix1 d)
  else ∑ j : Fin 23, hot (TOK j) t * bs (ix2 j d)

/-- What the kernel's dense product computes at (`b`, `t`, `d`). -/
def H (x : SX.Idx → EReal) (Wf : SWf.Idx → EReal) (bf : Sb.Idx → EReal) (Wp : SWp.Idx → EReal) (bp : Sb.Idx → EReal)
    (Ws bs : SWs.Idx → EReal) (b : Fin 8192) (t : Fin 25) (d : Fin 512) : EReal :=
  (∑ k : Fin 39, x (ix2 b k) * Wc Wf Wp Ws k t d) + bc bf bp bs t d

end Cert.Spec

end
-- ==== Proof.Algebra.lean ====
/-
  The one law that joins the two sides.  The kernel multiplies each input row by a combined weight whose entries
  are sums of one-hot selectors times weight entries; a sum of one-hot terms has at most one non-zero term, so it
  collapses to the selected entry (or to zero), and the outer sum over the 39 input columns then keeps exactly the
  selected columns.  Everything here uses only `0 * a = 0`, `a * 0 = 0`, `1 * a = a`, `0 + a = a` and sums with one
  non-zero term, all of which hold on the extended reals, infinities included; distributivity is never used.
-/
import proofs.«119597_j64269890618106_2_alg».proof.Proof.Spec

noncomputable section

namespace Cert.Spec

open Idealize.ShloMosaic Idealize.ShloMosaic.ValueIdx

theorem hot_self {ι : Type} [DecidableEq ι] (a : ι) : hot a a = 1 := if_pos rfl
theorem hot_ne {ι : Type} [DecidableEq ι] {a b : ι} (h : a ≠ b) : hot a b = 0 := if_neg h

/-- A sum of one-hot terms along an injective selection, at a selected index: the selected entry. -/
theorem sum_hot_of_eq {ι κ : Type} [DecidableEq ι] [Fintype κ] [DecidableEq κ] (σ : κ → ι) (hσ : Function.Injective σ)
    (w : κ → EReal) (j0 : κ) : ∑ j, hot (σ j0) (σ j) * w j = w j0 := by
  rw [Finset.sum_eq_single j0]
  · rw [hot_self, one_mul]
  · intro j _ hne
    rw [hot_ne fun e => hne (hσ e).symm, zero_mul]
  · intro h; exact absurd (Finset.mem_univ _) h

/-- At an index nothing selects: zero. -/
theorem sum_hot_of_not_mem {ι κ : Type} [DecidableEq ι] [Fintype κ] (σ : κ → ι) (w : κ → EReal) (i : ι)
    (h : ∀ j, i ≠ σ j) : ∑ j, hot i (σ j) * w j = 0 :=
  Finset.sum_eq_zero fun j _ => by rw [hot_ne (h j), zero_mul]

/-- The outer sum over all indices of a factor times a one-hot selection keeps the selected indices only. -/
theorem onehot_dot {ι κ : Type} [Fintype ι] [DecidableEq ι] [Fintype κ] [DecidableEq κ] (σ : κ → ι)
    (hσ : Function.Injective σ) (a : ι → EReal) (w : κ → EReal) :
    ∑ i, a i * (∑ j, hot i (σ j) * w j) = ∑ j, a (σ j) * w j := by
  have key : ∀ i, a i * (∑ j, hot i (σ j) * w j) = ∑ j, if i = σ j then a i * w j else 0 := by
    intro i
    by_cases h : ∃ j0, i = σ j0
    · obtain ⟨j0, rfl⟩ := h
      rw [sum_hot_of_eq σ hσ, Finset.sum_eq_single j0]
      · rw [if_pos rfl]
      · intro j _ hne
        rw [if_neg fun e => hne (hσ e).symm]
      · intro h; exact absurd (Finset.mem_univ _) h
    · have h' : ∀ j, i ≠ σ j := fun j e => h ⟨j, e⟩
      rw [sum_hot_of_not_mem σ w i h', mul_zero]
      exact (Finset.sum_eq_zero fun j _ => by rw [if_neg (h' j)]).symm
  rw [Finset.sum_congr rfl fun i _ => key i, Finset.sum_comm]
  refine Finset.sum_congr rfl fun j _ => ?_
  rw [Finset.sum_ite_eq' Finset.univ (σ j) fun i => a i * w j, if_pos (Finset.mem_univ _)]

theorem FORE_inj : Function.Injective FORE := by decide
theorem PALM_inj : Function.Injective PALM := by decide
theorem SING_inj : Function.Injective SING := by decide
theorem TOK_inj : Function.Injective TOK := by decide
theorem TOK_ne_of_zero : ∀ (j : Fin 23) (t : Fin 25), t.val = 0 → TOK j ≠ t := by decide
theorem TOK_ne_of_two : ∀ (j : Fin 23) (t : Fin 25), t.val = 2 → TOK j ≠ t := by decide
theorem TOK_SENS : ∀ t : Fin 25, t.val ≠ 0 → t.val ≠ 2 → TOK (SENS t) = t := by decide

/-- In a token slot no single-feature sensor fills, the single-sensor part of the combined weight vanishes. -/
theorem WcSingle_eq_zero (Ws : SWs.Idx → EReal) (k : Fin 39) (t : Fin 25) (d : Fin 512) (h : ∀ j, TOK j ≠ t) :
    WcSingle Ws k t d = 0 :=
  Finset.sum_eq_zero fun j _ => by rw [hot_ne (h j), zero_mul, mul_zero]

theorem biasSingle_eq_zero (bs : SWs.Idx → EReal) (t : Fin 25) (d : Fin 512) (h : ∀ j, TOK j ≠ t) :
    ∑ j : Fin 23, hot (TOK j) t * bs (ix2 j d) = 0 :=
  Finset.sum_eq_zero fun j _ => by rw [hot_ne (h j), zero_mul]

/-- The kernel's dense product is the specification, entry by entry. -/
theorem H_eq_G (x : SX.Idx → EReal) (Wf : SWf.Idx → EReal) (bf : Sb.Idx → EReal) (Wp : SWp.Idx → EReal) (bp : Sb.Idx → EReal)
    (Ws bs : SWs.Idx → EReal) (b : Fin 8192) (t : Fin 25) (d : Fin 512) :
    H x Wf bf Wp bp Ws bs b t d = G x Wf bf Wp bp Ws bs b t d := by
  unfold H G Wc bc
  by_cases h0 : t.val = 0
  · simp only [if_pos h0]
    rw [biasSingle_eq_zero bs t d fun j => TOK_ne_of_zero j t h0, zero_add]
    refine congrArg (· + bf (ix1 d)) ?_
    rw [Finset.sum_congr rfl fun k _ => by
      rw [WcSingle_eq_zero Ws k t d fun j => TOK_ne_of_zero j t h0, zero_add]]
    exact onehot_dot FORE FORE_inj (fun k => x (ix2 b k)) fun j => Wf (ix2 d j)
  · by_cases h2 : t.val = 2
    · simp only [if_neg h0, if_pos h2]
      rw [biasSingle_eq_zero bs t d fun j => TOK_ne_of_two j t h2, zero_add]
      refine congrArg (· + bp (ix1 d)) ?_
      rw [Finset.sum_congr rfl fun k _ => by
        rw [WcSingle_eq_zero Ws k t d fun j => TOK_ne_of_two j t h2, zero_add]]
      exact onehot_dot PALM PALM_inj (fun k => x (ix2 b k)) fun j => Wp (ix2 d j)
    · simp only [if_neg h0, if_neg h2]
      have ht : TOK (SENS t) = t := TOK_SENS t h0 h2
      have hne : ∀ j : Fin 23, j ≠ SENS t → TOK j ≠ t := fun j hj e => hj (TOK_inj (e.trans ht.symm))
      have hb : ∑ j : Fin 23, hot (TOK j) t * bs (ix2 j d) = bs (ix2 (SENS t) d) := by
        rw [Finset.sum_eq_single (SENS t)]
        · rw [ht, hot_self, one_mul]
        · intro j _ hj
          rw [hot_ne (hne j hj), zero_mul]
        · intro h; exact absurd (Finset.mem_univ _) h
      have hw : ∑ k : Fin 39, x (ix2 b k) * WcSingle Ws k t d = x (ix2 b (SING (SENS t))) * Ws (ix2 (SENS t) d) := by
        unfold WcSingle
        rw [onehot_dot SING SING_inj (fun k => x (ix2 b k)) fun j => hot (TOK j) t * Ws (ix2 j d),
          Finset.sum_eq_single (SENS t)]
        · rw [ht, hot_self, one_mul]
        · intro j _ hj
          rw [hot_ne (hne j hj), zero_mul, mul_zero]
        · intro h; exact absurd (Finset.mem_univ _) h
      rw [hb, hw]

end Cert.Spec

end
-- ==== Proof.KRun.lean ====
/-
  The kernel program's run, read.  After the region the output array (8192 × 12800) holds the dense product of the
  arrays the region read; the one host operation after the region re-reads it as 8192 × 25 × 512 (row-major, so
  column `512 t + d` becomes token `t`, feature `d`).  With the combined weight and bias known entry by entry, that
  array is the specification.
-/
import proofs.«119597_j64269890618106_2_alg».proof.Proof.KBlocks
import proofs.«119597_j64269890618106_2_alg».proof.Proof.Algebra
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The result array: the region's output re-read at the three-axis shape. -/
def out (c : Dev nD) : S8192x25x512.Idx → EReal :=
  shapeCast S8192x25x512 (Blocks.Hfun (V m c main_arg0) (V m c main_v14) (V m c main_v22)) shapeCasts_S8192x12800_S8192x25x512

/-- What the host operation after the region leaves in the result buffer. -/
theorem tail_v24 (c : Dev nD) :
    Pipeline.afterTail₀ cfgs (dats m) 0 (V0 m) [hostOps1] c main_v24 = out m c := by
  unfold Pipeline.afterTail₀
  show StableHlo.after hostOps1 _ (Proc.devRef .tc main_v24) = _
  after_results
  have hA : Pipeline.withArrays (cfgs 0).spec c (V0 m c) (fun w => (dats m 0 c).arrAt w (cfgs 0).N) (Proc.devRef .tc main_v23)
      = Blocks.Hfun (V m c main_arg0) (V m c main_v14) (V m c main_v22) :=
    (Pipeline.withArrays_arr spec0 launch0.win.arr_inj c _ _ 3).trans (Blocks.final3 m c)
  rw [hA]
  rfl

/-- Every weakly fair execution of the kernel program terminates with the result buffer at `out` and the seven
    arguments unchanged. -/
theorem run_out : θ_run defs (onTc (τ := τ) (main (F := Ideal))) ⟨m, fun _ => 0, ρ⟩ fun r => ∀ c : Dev nD,
      r.2.mem ((c.tc : Thread nD τ).loc main_v24) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v24 (Pipeline.mem_restRefs_of main_v24 (by decide) (by decide))).trans (tail_v24 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

/-- The result array at (`b`, `t`, `d`) is the region's output at row `b`, column `512 t + d`. -/
theorem out_apply (c : Dev nD) (b : Fin 8192) (t : Fin 25) (d : Fin 512) :
    out m c (ix3 b t d) = Blocks.Hfun (V m c main_arg0) (V m c main_v14) (V m c main_v22) (ix2 b (Cert.Spec.col t d)) := by
  unfold out
  refine shapeCast_apply _ _ (ix3 b t d) (ix2 b (Cert.Spec.col t d)) ?_
  rw [Shape.rowMajor_val_two, Shape.rowMajor_val_three]
  show b.val * 12800 + (t.val * 512 + d.val) = (b.val * 25 + t.val) * 512 + d.val
  omega

/-- With the combined weight and the combined bias known entry by entry, the result array is the specification. -/
theorem out_eq_spec (c : Dev nD)
    (hW : ∀ (k : Fin 39) (t : Fin 25) (d : Fin 512), (V m c main_v14 : S39x12800.Idx → EReal) (ix2 k (Cert.Spec.col t d))
      = Cert.Spec.Wc (m ((c : Thread nD τ).loc main_arg1)) (m ((c : Thread nD τ).loc main_arg3)) (m ((c : Thread nD τ).loc main_arg5)) k t d)
    (hB : ∀ (t : Fin 25) (d : Fin 512), (V m c main_v22 : S1x12800.Idx → EReal) (ix2 (0 : Fin 1) (Cert.Spec.col t d))
      = Cert.Spec.bc (m ((c : Thread nD τ).loc main_arg2)) (m ((c : Thread nD τ).loc main_arg4)) (m ((c : Thread nD τ).loc main_arg6)) t d) :
    out m c = Cert.Spec.Gfun (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  funext i
  obtain ⟨b, t, d, rfl⟩ : ∃ (b : Fin 8192) (t : Fin 25) (d : Fin 512), i = ix3 b t d := ⟨i 0, i 1, i 2, eq_ix3 i⟩
  rw [out_apply, Cert.Spec.Gfun_apply, ← Cert.Spec.H_eq_G]
  unfold Blocks.Hfun Cert.Spec.H
  rw [hB t d, V_main_arg0 m c]
  refine congrArg (· + _) (Finset.sum_congr rfl fun k _ => ?_)
  rw [hW k t d]

end Cert.KernelIdeal.Run

end
-- ==== Proof.WcDefs.lean ====
/-
  The combined weight, stage by stage.  The program assembles a 39 × 12800 weight from the three weight arrays
  before the dense product: each of the three is routed to its input columns by a 0/1 selector matrix, the
  single-sensor weight rows are first placed in their token slots (a product with a 0/1 slot matrix, broadcast over
  the 512 features, then flattened to 12800 columns), and the forehand and palm products are added into the column
  ranges of token 0 and token 2.  Each stage is named here as a function of the weight arrays alone, so that every
  later statement mentions one stage at a time.
-/
import proofs.«119597_j64269890618106_2_alg».proof.Proof.Gen.KernelIdeal
import Idealize.ShloMosaic.PureOps.Ideal

noncomputable section

namespace Cert.KernelIdeal.HostValue

open Cert.KernelIdeal Cert.KernelIdeal.Gen Idealize.ShloMosaic Idealize.ShloMosaic.TcCoe Idealize.SL.Sem

/-- The 39 × 9 selector of the forehand columns. -/
def tabF : FVec Ideal S39x9 .f32 := fun i => FloatOps.ofBits .f32 (lit0 (S39x9.rowMajor i))
/-- The 39 × 7 selector of the palm columns. -/
def tabP : FVec Ideal S39x7 .f32 := fun i => FloatOps.ofBits .f32 (lit1 (S39x7.rowMajor i))
/-- The 39 × 23 selector of the single-sensor columns. -/
def tabS : FVec Ideal S39x23 .f32 := fun i => FloatOps.ofBits .f32 (lit2 (S39x23.rowMajor i))
/-- The 23 × 25 matrix placing each single sensor in its token slot. -/
def tabT : FVec Ideal S23x25 .f32 := fun i => FloatOps.ofBits .f32 (lit3 (S23x25.rowMajor i))

/-- The forehand weight routed to its input columns: selector times the transposed weight. -/
def foreProd (Wf : FVec Ideal S512x9 .f32) : FVec Ideal S39x512 .f32 :=
  Host.dotGeneral dot_S39x9_S9x512_S39x512_1_0_0_1_n_n none tabF (transpose S9x512 [1, 0] Wf transposes_S512x9_S9x512_1_0)

/-- The palm weight routed to its input columns. -/
def palmProd (Wp : FVec Ideal S512x7 .f32) : FVec Ideal S39x512 .f32 :=
  Host.dotGeneral dot_S39x7_S7x512_S39x512_1_0_0_1_n_n none tabP (transpose S7x512 [1, 0] Wp transposes_S512x7_S7x512_1_0)

/-- Each single sensor's weight row placed in its token slot: entry (sensor, token, feature) is the slot matrix's
    entry times the weight's. -/
def slotted (Ws : FVec Ideal S23x512 .f32) : FVec Ideal S23x25x512 .f32 :=
  mulf
    (broadcastInDim S23x25x512 ![0, 1, 2] bcast_S23x25x1_S23x25x512_0_1_2
      (broadcastInDim S23x25x1 ![0, 1] bcast_S23x25_S23x25x1_0_1 tabT))
    (broadcastInDim S23x25x512 ![0, 1, 2] bcast_S23x1x512_S23x25x512_0_1_2
      (broadcastInDim S23x1x512 ![0, 2] bcast_S23x512_S23x1x512_0_2 Ws))

/-- The single-sensor part: the slotted rows, flattened to 12800 columns, routed to their input columns. -/
def singProd (Ws : FVec Ideal S23x512 .f32) : FVec Ideal S39x12800 .f32 :=
  Host.dotGeneral dot_S39x23_S23x12800_S39x12800_1_0_0_1_n_n none tabS
    (shapeCast S23x12800 (slotted Ws) shapeCasts_S23x25x512_S23x12800)

/-- The one-entry vector holding a column range's first column. -/
def startAt (b : BitVec 32) : IVec S1 32 := broadcastInDim S1 ![] bcast_S_S1 (constantI S_ 32 b)

/-- The single-sensor part with the forehand product added into columns 0 … 511. -/
def withFore (Wf : FVec Ideal S512x9 .f32) (Ws : FVec Ideal S23x512 .f32) : FVec Ideal S39x12800 .f32 :=
  Host.scatter scatter_S39x12800_S1_S39x512_01_n_1_0 FloatOps.addf (singProd Ws) (startAt 0#32) (foreProd Wf)

/-- The combined weight: the palm product added into columns 1024 … 1535 of the above. -/
def combined (Wf : FVec Ideal S512x9 .f32) (Wp : FVec Ideal S512x7 .f32) (Ws : FVec Ideal S23x512 .f32) :
    FVec Ideal S39x12800 .f32 :=
  Host.scatter scatter_S39x12800_S1_S39x512_01_n_1_0 FloatOps.addf (withFore Wf Ws) (startAt 1024#32) (palmProd Wp)

end Cert.KernelIdeal.HostValue

end
-- ==== Proof.WcTerm.lean ====
/-
  The combined weight as the region finds it: the array the dense product reads as its second operand is the
  composition of the host operations that build it, applied to the three weight arrays as launched.
-/
import proofs.«119597_j64269890618106_2_alg».proof.Proof.Gen.KernelIdeal.Frame
import proofs.«119597_j64269890618106_2_alg».proof.Proof.WcDefs

noncomputable section

namespace Cert.KernelIdeal.HostValue

open Cert.KernelIdeal Cert.KernelIdeal.Gen Idealize.ShloMosaic Idealize.ShloMosaic.TcCoe Idealize.SL.Sem

/-- The second operand of the dense product is the combined weight of the launched forehand, palm and single-sensor
    weights. -/
theorem V_main_v14 (m : (ℓ : Loc nD τ sig) → Buf (Elt Ideal) ℓ) (c : Dev nD) :
    (Gen.V (F := Ideal) m c main_v14 : S39x12800.Idx → EReal)
      = combined (m ((c : Thread nD τ).loc main_arg1)) (m ((c : Thread nD τ).loc main_arg3))
          (m ((c : Thread nD τ).loc main_arg5)) := by
  show StableHlo.after hostOps0 (fun b => m (c, b)) (Proc.devRef .tc main_v14) = _
  after_results_simp
  rfl

end Cert.KernelIdeal.HostValue

end
-- ==== Proof.WcTables.lean ====
/-
  The four constant tables are 0/1 matrices.  Entry (k, j) of the forehand selector is 1 exactly when input
  column k is the j-th forehand column, likewise for the palm and single-sensor selectors, and entry (j, t) of the
  slot matrix is 1 exactly when token t is sensor j's slot.  Each is checked on the table's words, entry by entry,
  and then read as an extended real: the word of 1.0 is 1 and the zero word is 0.
-/
import proofs.«119597_j64269890618106_2_alg».proof.Proof.WcDefs
import proofs.«119597_j64269890618106_2_alg».proof.Proof.Spec
import Idealize.ShloMosaic.PureOps.IdealRules
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.ValueIdx
  Idealize.SL.Sem

/-- The words of the forehand selector, row k column j at position 9 k + j. -/
theorem lit0_words : ∀ (k : Fin 39) (j : Fin 9),
    lit0 ⟨k.val * 9 + j.val, by omega⟩ = if k = Cert.Spec.FORE j then 0x3F800000#32 else 0x00000000#32 := by
  decide +kernel

/-- The words of the palm selector, row k column j at position 7 k + j. -/
theorem lit1_words : ∀ (k : Fin 39) (j : Fin 7),
    lit1 ⟨k.val * 7 + j.val, by omega⟩ = if k = Cert.Spec.PALM j then 0x3F800000#32 else 0x00000000#32 := by
  decide +kernel

/-- The words of the single-sensor selector, row k column j at position 23 k + j. -/
theorem lit2_words : ∀ (k : Fin 39) (j : Fin 23),
    lit2 ⟨k.val * 23 + j.val, by omega⟩ = if k = Cert.Spec.SING j then 0x3F800000#32 else 0x00000000#32 := by
  decide +kernel

/-- The words of the slot matrix, row j column t at position 25 j + t. -/
theorem lit3_words : ∀ (j : Fin 23) (t : Fin 25),
    lit3 ⟨j.val * 25 + t.val, by omega⟩ = if Cert.Spec.TOK j = t then 0x3F800000#32 else 0x00000000#32 := by
  decide +kernel

/-- A 0/1 word read as an extended real is the one-hot entry. -/
theorem ofBits_hot {ι : Type} [DecidableEq ι] (a b : ι) :
    Ideal.ofBits .f32 (if a = b then 0x3F800000#32 else 0x00000000#32) = Cert.Spec.hot a b := by
  unfold Cert.Spec.hot
  by_cases h : a = b
  · rw [if_pos h, if_pos h]; exact IdealRules.sign_bit.ideal_onePat .f32
  · rw [if_neg h, if_neg h]; exact Ideal.ofBits_zero_f32

theorem tabF_apply (k : Fin 39) (j : Fin 9) : tabF (ix2 k j) = Cert.Spec.hot k (Cert.Spec.FORE j) := by
  have hpos : S39x9.rowMajor (ix2 k j) = (⟨k.val * 9 + j.val, by omega⟩ : Fin 351) :=
    Fin.ext ((Shape.rowMajor_val_two _).trans rfl)
  show Ideal.ofBits .f32 (lit0 (S39x9.rowMajor (ix2 k j))) = _
  rw [hpos, lit0_words k j, ofBits_hot]

theorem tabP_apply (k : Fin 39) (j : Fin 7) : tabP (ix2 k j) = Cert.Spec.hot k (Cert.Spec.PALM j) := by
  have hpos : S39x7.rowMajor (ix2 k j) = (⟨k.val * 7 + j.val, by omega⟩ : Fin 273) :=
    Fin.ext ((Shape.rowMajor_val_two _).trans rfl)
  show Ideal.ofBits .f32 (lit1 (S39x7.rowMajor (ix2 k j))) = _
  rw [hpos, lit1_words k j, ofBits_hot]

theorem tabS_apply (k : Fin 39) (j : Fin 23) : tabS (ix2 k j) = Cert.Spec.hot k (Cert.Spec.SING j) := by
  have hpos : S39x23.rowMajor (ix2 k j) = (⟨k.val * 23 + j.val, by omega⟩ : Fin 897) :=
    Fin.ext ((Shape.rowMajor_val_two _).trans rfl)
  show Ideal.ofBits .f32 (lit2 (S39x23.rowMajor (ix2 k j))) = _
  rw [hpos, lit2_words k j, ofBits_hot]

theorem tabT_apply (j : Fin 23) (t : Fin 25) : tabT (ix2 j t) = Cert.Spec.hot (Cert.Spec.TOK j) t := by
  have hpos : S23x25.rowMajor (ix2 j t) = (⟨j.val * 25 + t.val, by omega⟩ : Fin 575) :=
    Fin.ext ((Shape.rowMajor_val_two _).trans rfl)
  show Ideal.ofBits .f32 (lit3 (S23x25.rowMajor (ix2 j t))) = _
  rw [hpos, lit3_words j t, ofBits_hot]

end Cert.KernelIdeal.HostValue

end
-- ==== Proof.WcDots.lean ====
/-
  A product of a selector matrix with a weight, read at one entry.  With one contracted axis and no batch axis, entry
  (a, b) of the product is the sum over the shared axis of left (a, j) times right (j, b); the three products of the
  combined weight (39 × 9 by 9 × 512, 39 × 7 by 7 × 512, 39 × 23 by 23 × 12800) are read this way, the sum
  re-indexed from the contraction's own index set to the literal range of the shared axis.
-/
import proofs.«119597_j64269890618106_2_alg».proof.Proof.Gen.KernelIdeal
import Idealize.ShloMosaic.PureOps.Ideal.Laws
import Idealize.ShloMosaic.Lib.ValueIdx

noncomputable section

open scoped BigOperators

namespace Cert.KernelIdeal.HostValue

open Cert.KernelIdeal Cert.KernelIdeal.Gen Idealize.ShloMosaic Idealize.ShloMosaic.TcCoe Idealize.ShloMosaic.ValueIdx
  Idealize.SL.Sem

/-! ### The forehand product: 39 × 9 by 9 × 512 -/

theorem lhsF_0 (i : S39x512.Idx) (q : dot_S39x9_S9x512_S39x512_1_0_0_1_n_n.contr.Idx) :
    (dot_S39x9_S9x512_S39x512_1_0_0_1_n_n.lhsIdx i q 0).val = (i 0).val := by
  unfold DotDims.lhsIdx
  rw [dif_neg (show ¬(0 : Fin S39x9.rank) ∈ dot_S39x9_S9x512_S39x512_1_0_0_1_n_n.lhsBatch by decide),
    dif_pos (show (0 : Fin S39x9.rank) ∈ dot_S39x9_S9x512_S39x512_1_0_0_1_n_n.lhsNonContracting by decide)]
  rfl
theorem lhsF_1 (i : S39x512.Idx) (q : dot_S39x9_S9x512_S39x512_1_0_0_1_n_n.contr.Idx) :
    (dot_S39x9_S9x512_S39x512_1_0_0_1_n_n.lhsIdx i q 1).val = (q ⟨0, by decide⟩).val :=
  dot_S39x9_S9x512_S39x512_1_0_0_1_n_n.lhsIdx_val_of_single rfl i q
theorem rhsF_0 (i : S39x512.Idx) (q : dot_S39x9_S9x512_S39x512_1_0_0_1_n_n.contr.Idx) :
    (dot_S39x9_S9x512_S39x512_1_0_0_1_n_n.rhsIdx i q 0).val = (q ⟨0, by decide⟩).val :=
  dot_S39x9_S9x512_S39x512_1_0_0_1_n_n.rhsIdx_val_of_single rfl i q
theorem rhsF_1 (i : S39x512.Idx) (q : dot_S39x9_S9x512_S39x512_1_0_0_1_n_n.contr.Idx) :
    (dot_S39x9_S9x512_S39x512_1_0_0_1_n_n.rhsIdx i q 1).val = (i 1).val := by
  unfold DotDims.rhsIdx
  rw [dif_neg (show ¬(1 : Fin S9x512.rank) ∈ dot_S39x9_S9x512_S39x512_1_0_0_1_n_n.rhsBatch by decide),
    dif_pos (show (1 : Fin S9x512.rank) ∈ dot_S39x9_S9x512_S39x512_1_0_0_1_n_n.rhsNonContracting by decide)]
  rfl

/-- Entry (a, b) of the product is the sum over the 9 shared positions j of left (a, j) times right (j, b). -/
theorem dotF_apply (l : FVec Ideal S39x9 .f32) (r : FVec Ideal S9x512 .f32) (a : Fin 39) (b : Fin 512) :
    Host.dotGeneral dot_S39x9_S9x512_S39x512_1_0_0_1_n_n none l r (ix2 a b) = ∑ j : Fin 9, l (ix2 a j) * r (ix2 j b) := by
  simp only [Host.dotGeneral]
  rw [Ideal.dotGeneral_apply, ← Equiv.sum_comp (contrEquiv1 dot_S39x9_S9x512_S39x512_1_0_0_1_n_n 9 rfl rfl).symm]
  refine Finset.sum_congr rfl fun j _ => ?_
  have hk := contrEquiv1_symm_val dot_S39x9_S9x512_S39x512_1_0_0_1_n_n 9 rfl rfl j
  have el : dot_S39x9_S9x512_S39x512_1_0_0_1_n_n.lhsIdx (ix2 a b) ((contrEquiv1 dot_S39x9_S9x512_S39x512_1_0_0_1_n_n 9 rfl rfl).symm j) = ix2 a j :=
    funext fun x => Fin.ext (by
      match x with
      | ⟨0, _⟩ => exact lhsF_0 _ _
      | ⟨1, _⟩ => exact (lhsF_1 _ _).trans hk)
  have er : dot_S39x9_S9x512_S39x512_1_0_0_1_n_n.rhsIdx (ix2 a b) ((contrEquiv1 dot_S39x9_S9x512_S39x512_1_0_0_1_n_n 9 rfl rfl).symm j) = ix2 j b :=
    funext fun x => Fin.ext (by
      match x with
      | ⟨0, _⟩ => exact (rhsF_0 _ _).trans hk
      | ⟨1, _⟩ => exact rhsF_1 _ _)
  rw [el, er]

/-! ### The palm product: 39 × 7 by 7 × 512 -/

theorem lhsP_0 (i : S39x512.Idx) (q : dot_S39x7_S7x512_S39x512_1_0_0_1_n_n.contr.Idx) :
    (dot_S39x7_S7x512_S39x512_1_0_0_1_n_n.lhsIdx i q 0).val = (i 0).val := by
  unfold DotDims.lhsIdx
  rw [dif_neg (show ¬(0 : Fin S39x7.rank) ∈ dot_S39x7_S7x512_S39x512_1_0_0_1_n_n.lhsBatch by decide),
    dif_pos (show (0 : Fin S39x7.rank) ∈ dot_S39x7_S7x512_S39x512_1_0_0_1_n_n.lhsNonContracting by decide)]
  rfl
theorem lhsP_1 (i : S39x512.Idx) (q : dot_S39x7_S7x512_S39x512_1_0_0_1_n_n.contr.Idx) :
    (dot_S39x7_S7x512_S39x512_1_0_0_1_n_n.lhsIdx i q 1).val = (q ⟨0, by decide⟩).val :=
  dot_S39x7_S7x512_S39x512_1_0_0_1_n_n.lhsIdx_val_of_single rfl i q
theorem rhsP_0 (i : S39x512.Idx) (q : dot_S39x7_S7x512_S39x512_1_0_0_1_n_n.contr.Idx) :
    (dot_S39x7_S7x512_S39x512_1_0_0_1_n_n.rhsIdx i q 0).val = (q ⟨0, by decide⟩).val :=
  dot_S39x7_S7x512_S39x512_1_0_0_1_n_n.rhsIdx_val_of_single rfl i q
theorem rhsP_1 (i : S39x512.Idx) (q : dot_S39x7_S7x512_S39x512_1_0_0_1_n_n.contr.Idx) :
    (dot_S39x7_S7x512_S39x512_1_0_0_1_n_n.rhsIdx i q 1).val = (i 1).val := by
  unfold DotDims.rhsIdx
  rw [dif_neg (show ¬(1 : Fin S7x512.rank) ∈ dot_S39x7_S7x512_S39x512_1_0_0_1_n_n.rhsBatch by decide),
    dif_pos (show (1 : Fin S7x512.rank) ∈ dot_S39x7_S7x512_S39x512_1_0_0_1_n_n.rhsNonContracting by decide)]
  rfl

/-- Entry (a, b) of the product is the sum over the 7 shared positions j of left (a, j) times right (j, b). -/
theorem dotP_apply (l : FVec Ideal S39x7 .f32) (r : FVec Ideal S7x512 .f32) (a : Fin 39) (b : Fin 512) :
    Host.dotGeneral dot_S39x7_S7x512_S39x512_1_0_0_1_n_n none l r (ix2 a b) = ∑ j : Fin 7, l (ix2 a j) * r (ix2 j b) := by
  simp only [Host.dotGeneral]
  rw [Ideal.dotGeneral_apply, ← Equiv.sum_comp (contrEquiv1 dot_S39x7_S7x512_S39x512_1_0_0_1_n_n 7 rfl rfl).symm]
  refine Finset.sum_congr rfl fun j _ => ?_
  have hk := contrEquiv1_symm_val dot_S39x7_S7x512_S39x512_1_0_0_1_n_n 7 rfl rfl j
  have el : dot_S39x7_S7x512_S39x512_1_0_0_1_n_n.lhsIdx (ix2 a b) ((contrEquiv1 dot_S39x7_S7x512_S39x512_1_0_0_1_n_n 7 rfl rfl).symm j) = ix2 a j :=
    funext fun x => Fin.ext (by
      match x with
      | ⟨0, _⟩ => exact lhsP_0 _ _
      | ⟨1, _⟩ => exact (lhsP_1 _ _).trans hk)
  have er : dot_S39x7_S7x512_S39x512_1_0_0_1_n_n.rhsIdx (ix2 a b) ((contrEquiv1 dot_S39x7_S7x512_S39x512_1_0_0_1_n_n 7 rfl rfl).symm j) = ix2 j b :=
    funext fun x => Fin.ext (by
      match x with
      | ⟨0, _⟩ => exact (rhsP_0 _ _).trans hk
      | ⟨1, _⟩ => exact rhsP_1 _ _)
  rw [el, er]

/-! ### The single-sensor product: 39 × 23 by 23 × 12800 -/

theorem lhsS_0 (i : S39x12800.Idx) (q : dot_S39x23_S23x12800_S39x12800_1_0_0_1_n_n.contr.Idx) :
    (dot_S39x23_S23x12800_S39x12800_1_0_0_1_n_n.lhsIdx i q 0).val = (i 0).val := by
  unfold DotDims.lhsIdx
  rw [dif_neg (show ¬(0 : Fin S39x23.rank) ∈ dot_S39x23_S23x12800_S39x12800_1_0_0_1_n_n.lhsBatch by decide),
    dif_pos (show (0 : Fin S39x23.rank) ∈ dot_S39x23_S23x12800_S39x12800_1_0_0_1_n_n.lhsNonContracting by decide)]
  rfl
theorem lhsS_1 (i : S39x12800.Idx) (q : dot_S39x23_S23x12800_S39x12800_1_0_0_1_n_n.contr.Idx) :
    (dot_S39x23_S23x12800_S39x12800_1_0_0_1_n_n.lhsIdx i q 1).val = (q ⟨0, by decide⟩).val :=
  dot_S39x23_S23x12800_S39x12800_1_0_0_1_n_n.lhsIdx_val_of_single rfl i q
theorem rhsS_0 (i : S39x12800.Idx) (q : dot_S39x23_S23x12800_S39x12800_1_0_0_1_n_n.contr.Idx) :
    (dot_S39x23_S23x12800_S39x12800_1_0_0_1_n_n.rhsIdx i q 0).val = (q ⟨0, by decide⟩).val :=
  dot_S39x23_S23x12800_S39x12800_1_0_0_1_n_n.rhsIdx_val_of_single rfl i q
theorem rhsS_1 (i : S39x12800.Idx) (q : dot_S39x23_S23x12800_S39x12800_1_0_0_1_n_n.contr.Idx) :
    (dot_S39x23_S23x12800_S39x12800_1_0_0_1_n_n.rhsIdx i q 1).val = (i 1).val := by
  unfold DotDims.rhsIdx
  rw [dif_neg (show ¬(1 : Fin S23x12800.rank) ∈ dot_S39x23_S23x12800_S39x12800_1_0_0_1_n_n.rhsBatch by decide),
    dif_pos (show (1 : Fin S23x12800.rank) ∈ dot_S39x23_S23x12800_S39x12800_1_0_0_1_n_n.rhsNonContracting by decide)]
  rfl

/-- Entry (a, b) of the product is the sum over the 23 shared positions j of left (a, j) times right (j, b). -/
theorem dotS_apply (l : FVec Ideal S39x23 .f32) (r : FVec Ideal S23x12800 .f32) (a : Fin 39) (b : Fin 12800) :
    Host.dotGeneral dot_S39x23_S23x12800_S39x12800_1_0_0_1_n_n none l r (ix2 a b) = ∑ j : Fin 23, l (ix2 a j) * r (ix2 j b) := by
  simp only [Host.dotGeneral]
  rw [Ideal.dotGeneral_apply, ← Equiv.sum_comp (contrEquiv1 dot_S39x23_S23x12800_S39x12800_1_0_0_1_n_n 23 rfl rfl).symm]
  refine Finset.sum_congr rfl fun j _ => ?_
  have hk := contrEquiv1_symm_val dot_S39x23_S23x12800_S39x12800_1_0_0_1_n_n 23 rfl rfl j
  have el : dot_S39x23_S23x12800_S39x12800_1_0_0_1_n_n.lhsIdx (ix2 a b) ((contrEquiv1 dot_S39x23_S23x12800_S39x12800_1_0_0_1_n_n 23 rfl rfl).symm j) = ix2 a j :=
    funext fun x => Fin.ext (by
      match x with
      | ⟨0, _⟩ => exact lhsS_0 _ _
      | ⟨1, _⟩ => exact (lhsS_1 _ _).trans hk)
  have er : dot_S39x23_S23x12800_S39x12800_1_0_0_1_n_n.rhsIdx (ix2 a b) ((contrEquiv1 dot_S39x23_S23x12800_S39x12800_1_0_0_1_n_n 23 rfl rfl).symm j) = ix2 j b :=
    funext fun x => Fin.ext (by
      match x with
      | ⟨0, _⟩ => exact (rhsS_0 _ _).trans hk
      | ⟨1, _⟩ => exact rhsS_1 _ _)
  rw [el, er]

end Cert.KernelIdeal.HostValue

end
-- ==== Proof.WcParts.lean ====
/-
  The three routed products, entry by entry.  The forehand product at (k, d) is the sum over the nine forehand
  positions j of [k is the j-th forehand column] times the forehand weight at (d, j) (the weight enters transposed);
  the palm product likewise over seven positions; and the single-sensor product at (k, 512 t + d) is the sum over the
  twenty-three sensors j of [k is sensor j's column] times [t is sensor j's slot] times the sensor weight at (j, d):
  the slot matrix and the weight are both broadcast to sensor × token × feature, multiplied entrywise, and the token
  and feature axes flattened into the 12800 columns.
-/
import proofs.«119597_j64269890618106_2_alg».proof.Proof.WcDefs
import proofs.«119597_j64269890618106_2_alg».proof.Proof.WcTables
import proofs.«119597_j64269890618106_2_alg».proof.Proof.WcDots
import proofs.«119597_j64269890618106_2_alg».proof.Proof.Spec
import Idealize.ShloMosaic.Lib.Pipeline.Value

noncomputable section

open scoped BigOperators

namespace Cert.KernelIdeal.HostValue

open Cert.KernelIdeal Cert.KernelIdeal.Gen Idealize.ShloMosaic Idealize.ShloMosaic.TcCoe Idealize.ShloMosaic.ValueIdx
  Idealize.SL.Sem

/-! ### The layout operations at an entry -/

/-- The transposed forehand weight at (j, d) is the weight at (d, j). -/
theorem transposeF_apply (Wf : FVec Ideal S512x9 .f32) (j : Fin 9) (d : Fin 512) :
    transpose S9x512 [1, 0] Wf transposes_S512x9_S9x512_1_0 (ix2 j d) = Wf (ix2 d j) :=
  transpose_apply [1, 0] Wf transposes_S512x9_S9x512_1_0 (ix2 j d) (ix2 d j) (fun b => by
    match b with
    | ⟨0, _⟩ => rfl
    | ⟨1, _⟩ => rfl)

/-- The transposed palm weight at (j, d) is the weight at (d, j). -/
theorem transposeP_apply (Wp : FVec Ideal S512x7 .f32) (j : Fin 7) (d : Fin 512) :
    transpose S7x512 [1, 0] Wp transposes_S512x7_S7x512_1_0 (ix2 j d) = Wp (ix2 d j) :=
  transpose_apply [1, 0] Wp transposes_S512x7_S7x512_1_0 (ix2 j d) (ix2 d j) (fun b => by
    match b with
    | ⟨0, _⟩ => rfl
    | ⟨1, _⟩ => rfl)

/-- A sensor × token matrix given a trailing unit axis. -/
theorem slotUnit_apply (x : FVec Ideal S23x25 .f32) (j : Fin 23) (t : Fin 25) (z : Fin 1) :
    broadcastInDim S23x25x1 ![0, 1] bcast_S23x25_S23x25x1_0_1 x (ix3 j t z) = x (ix2 j t) :=
  broadcastInDim_apply _ _ x (ix3 j t z) (ix2 j t) (fun a => by
    match a with
    | ⟨0, _⟩ => rfl
    | ⟨1, _⟩ => rfl)

/-- … and its unit axis stretched over the 512 features. -/
theorem slotWide_apply (x : FVec Ideal S23x25x1 .f32) (j : Fin 23) (t : Fin 25) (d : Fin 512) :
    broadcastInDim S23x25x512 ![0, 1, 2] bcast_S23x25x1_S23x25x512_0_1_2 x (ix3 j t d) = x (ix3 j t (0 : Fin 1)) :=
  broadcastInDim_apply _ _ x (ix3 j t d) (ix3 j t (0 : Fin 1)) (fun a => by
    match a with
    | ⟨0, _⟩ => rfl
    | ⟨1, _⟩ => rfl
    | ⟨2, _⟩ => rfl)

/-- A sensor × feature matrix given a middle unit axis. -/
theorem rowUnit_apply (x : FVec Ideal S23x512 .f32) (j : Fin 23) (z : Fin 1) (d : Fin 512) :
    broadcastInDim S23x1x512 ![0, 2] bcast_S23x512_S23x1x512_0_2 x (ix3 j z d) = x (ix2 j d) :=
  broadcastInDim_apply _ _ x (ix3 j z d) (ix2 j d) (fun a => by
    match a with
    | ⟨0, _⟩ => rfl
    | ⟨1, _⟩ => rfl)

/-- … and its unit axis stretched over the 25 tokens. -/
theorem rowWide_apply (x : FVec Ideal S23x1x512 .f32) (j : Fin 23) (t : Fin 25) (d : Fin 512) :
    broadcastInDim S23x25x512 ![0, 1, 2] bcast_S23x1x512_S23x25x512_0_1_2 x (ix3 j t d) = x (ix3 j (0 : Fin 1) d) :=
  broadcastInDim_apply _ _ x (ix3 j t d) (ix3 j (0 : Fin 1) d) (fun a => by
    match a with
    | ⟨0, _⟩ => rfl
    | ⟨1, _⟩ => rfl
    | ⟨2, _⟩ => rfl)

/-- Flattening token and feature into one axis: column 512 t + d of the flat array is entry (t, d). -/
theorem flat_apply (x : FVec Ideal S23x25x512 .f32) (j : Fin 23) (t : Fin 25) (d : Fin 512) :
    shapeCast S23x12800 x shapeCasts_S23x25x512_S23x12800 (ix2 j (Cert.Spec.col t d)) = x (ix3 j t d) :=
  shapeCast_apply x shapeCasts_S23x25x512_S23x12800 (ix2 j (Cert.Spec.col t d)) (ix3 j t d) (by
    rw [Shape.rowMajor_val_three, Shape.rowMajor_val_two]
    show (j.val * 25 + t.val) * 512 + d.val = j.val * 12800 + (t.val * 512 + d.val)
    omega)

/-! ### The three products -/

/-- Sensor j's weight row in its token slot. -/
theorem slotted_apply (Ws : FVec Ideal S23x512 .f32) (j : Fin 23) (t : Fin 25) (d : Fin 512) :
    slotted Ws (ix3 j t d) = Cert.Spec.hot (Cert.Spec.TOK j) t * Ws (ix2 j d) := by
  unfold slotted
  rw [mulf_apply, slotWide_apply, slotUnit_apply, rowWide_apply, rowUnit_apply, tabT_apply]

/-- The forehand weight routed to its columns. -/
theorem foreProd_apply (Wf : FVec Ideal S512x9 .f32) (k : Fin 39) (d : Fin 512) :
    foreProd Wf (ix2 k d) = ∑ j : Fin 9, Cert.Spec.hot k (Cert.Spec.FORE j) * Wf (ix2 d j) := by
  unfold foreProd
  rw [dotF_apply]
  refine Finset.sum_congr rfl fun j _ => ?_
  rw [tabF_apply, transposeF_apply]

/-- The palm weight routed to its columns. -/
theorem palmProd_apply (Wp : FVec Ideal S512x7 .f32) (k : Fin 39) (d : Fin 512) :
    palmProd Wp (ix2 k d) = ∑ j : Fin 7, Cert.Spec.hot k (Cert.Spec.PALM j) * Wp (ix2 d j) := by
  unfold palmProd
  rw [dotP_apply]
  refine Finset.sum_congr rfl fun j _ => ?_
  rw [tabP_apply, transposeP_apply]

/-- The single-sensor part of the combined weight. -/
theorem singProd_apply (Ws : FVec Ideal S23x512 .f32) (k : Fin 39) (t : Fin 25) (d : Fin 512) :
    singProd Ws (ix2 k (Cert.Spec.col t d)) = Cert.Spec.WcSingle Ws k t d := by
  unfold singProd Cert.Spec.WcSingle
  rw [dotS_apply]
  refine Finset.sum_congr rfl fun j _ => ?_
  rw [tabS_apply, flat_apply, slotted_apply]

end Cert.KernelIdeal.HostValue

end
-- ==== Proof.LibScatter.lean ====
/-
  A scatter read at one element.  A host scatter is a left fold over the update's positions, each step replacing
  the element its position lands on by the combiner applied to that element and the update's.  When no two update
  positions land on one element, the fold's result at an element is decided by the at most one position that lands
  on it: the combiner of the ORIGINAL element and that update if there is one, the original element if there is none.
-/
import Idealize.ShloMosaic.PureOps.ShapeOps

namespace Cert.LibScatter

open Idealize.ShloMosaic

variable {α : Type} {s si u : Shape} {w : Nat}

/-- One step of the fold: position `n` of the update, applied to the array so far. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose position does not land on `i` leaves the element at `i` alone. -/
theorem step_miss (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  cases hn : d.resultIdx? (u.rowMajor.symm n) idx with
  | none => rfl
  | some i0 =>
    have hne : i ≠ i0 := fun e => h (by rw [hn, e])
    show (if i = i0 then _ else r i) = r i
    rw [if_neg hne]

/-- A step whose position lands on `i` puts the combiner of the element and the update there. -/
theorem step_hit (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  show (if i = i then _ else r i) = _
  rw [if_pos rfl]

/-- Positions none of which lands on `i` leave the element at `i` alone. -/
theorem foldl_miss (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
      l.foldl (step d f idx upd) r i = r i
  | [], _, _ => rfl
  | n :: l, r, h => by
    rw [List.foldl_cons, foldl_miss d f idx upd i l _ fun n' hn' => h n' (List.mem_cons_of_mem _ hn')]
    exact step_miss d f idx upd r n i (h n List.mem_cons_self)

/-- Among distinct positions of which `n0` lands on `i` and no other does, the fold leaves the combiner of the
    original element and `n0`'s update at `i`. -/
theorem foldl_hit (d : ScatterDims s si u) (f : α → α → α) (idx : IVec si w) (upd : u.Idx → α) (i : s.Idx) (n0 : Fin u.numel)
    (h0 : d.resultIdx? (u.rowMajor.symm n0) idx = some i)
    (huniq : ∀ n, d.resultIdx? (u.rowMajor.symm n) idx = some i → n = n0) :
    ∀ (l : List (Fin u.numel)) (r : s.Idx → α), l.Nodup → n0 ∈ l →
      l.foldl (step d f idx upd) r i = f (r i) (upd (u.rowMajor.symm n0))
  | [], _, _, hm => absurd hm (List.not_mem_nil)
  | n :: l, r, hnd, hm => by
    rw [List.foldl_cons]
    rcases List.mem_cons.1 hm with rfl | hm'
    · have hnot : n0 ∉ l := (List.nodup_cons.1 hnd).1
      rw [foldl_miss d f idx upd i l _ fun n' hn' e => hnot (huniq n' e ▸ hn')]
      exact step_hit d f idx upd r n0 i h0
    · have hne : n ≠ n0 := fun e => (List.nodup_cons.1 hnd).1 (e ▸ hm')
      rw [foldl_hit d f idx upd i n0 h0 huniq l _ (List.nodup_cons.1 hnd).2 hm',
        step_miss d f idx upd r n i fun e => hne (huniq n e)]

/-- THE READING: with no two update positions landing on one element, the scatter's result at `i` is the
    combiner of the operand's element and the update at the position that lands on `i`, and the operand's element
    where no position does. -/
theorem scatter_apply (d : ScatterDims s si u) (f : α → α → α) (x : s.Idx → α) (idx : IVec si w) (upd : u.Idx → α)
    (hinj : ∀ j j' i, d.resultIdx? j idx = some i → d.resultIdx? j' idx = some i → j = j') (i : s.Idx) :
    (∀ j, d.resultIdx? j idx = some i → Host.scatter d f x idx upd i = f (x i) (upd j))
      ∧ ((∀ j, d.resultIdx? j idx ≠ some i) → Host.scatter d f x idx upd i = x i) := by
  constructor
  · intro j hj
    rw [scatter_eq_foldl]
    have h0 : d.resultIdx? (u.rowMajor.symm (u.rowMajor j)) idx = some i := by rw [Equiv.symm_apply_apply]; exact hj
    have := foldl_hit d f idx upd i (u.rowMajor j) h0
      (fun n hn => by
        have := hinj _ _ i hn h0
        exact u.rowMajor.symm.injective this)
      (List.finRange u.numel) x (List.nodup_finRange _) (List.mem_finRange _)
    rw [this, Equiv.symm_apply_apply]
  · intro hj
    rw [scatter_eq_foldl]
    exact foldl_miss d f idx upd i _ x fun n _ => hj _

end Cert.LibScatter
-- ==== Proof.WcScatter.lean ====
/-
  Adding a 39 × 512 block into a column range of the 39 × 12800 array.  The update's entry (k, d) lands on the
  array's entry (k, s + d), where s is the range's first column, read off the one-entry start vector; no two update
  entries land on one array entry, so the result is the array's entry plus the update's on the columns s … s + 511
  and the array's entry unchanged on every other column.
-/
import proofs.«119597_j64269890618106_2_alg».proof.Proof.WcDefs
import proofs.«119597_j64269890618106_2_alg».proof.Proof.LibScatter
import Idealize.ShloMosaic.Lib.ValueIdx

noncomputable section

namespace Cert.KernelIdeal.HostValue

open Cert.KernelIdeal Cert.KernelIdeal.Gen Idealize.ShloMosaic Idealize.ShloMosaic.TcCoe Idealize.ShloMosaic.ValueIdx
  Idealize.SL.Sem

/-! ### Where an update entry lands -/

/-- The row axis is not a scattered axis: its window starts at row 0. -/
theorem start_0 (j : S39x512.Idx) (idx : IVec S1 32) : scatter_S39x12800_S1_S39x512_01_n_1_0.start j idx 0 = 0 := by
  unfold ScatterDims.start
  rw [dif_neg (show ¬(0 : Fin S39x12800.rank) ∈ scatter_S39x12800_S1_S39x512_01_n_1_0.scatterDimsToOperandDims by decide)]

/-- The column axis is the scattered one: its window starts at the start vector's entry, read signed. -/
theorem start_1 (j : S39x512.Idx) (b : BitVec 32) : scatter_S39x12800_S1_S39x512_01_n_1_0.start j (startAt b) 1 = b.toInt := by
  unfold ScatterDims.start
  rw [dif_pos (show (1 : Fin S39x12800.rank) ∈ scatter_S39x12800_S1_S39x512_01_n_1_0.scatterDimsToOperandDims by decide)]
  rfl

/-- Inside the window the update's row is the array's row … -/
theorem window_0 (j : S39x512.Idx) : scatter_S39x12800_S1_S39x512_01_n_1_0.window j 0 = (j 0).val := by
  unfold ScatterDims.window
  rw [dif_pos (show (0 : Fin S39x12800.rank) ∈ scatter_S39x12800_S1_S39x512_01_n_1_0.sKept by decide)]
  rfl

/-- … and the update's column the offset from the window's first column. -/
theorem window_1 (j : S39x512.Idx) : scatter_S39x12800_S1_S39x512_01_n_1_0.window j 1 = (j 1).val := by
  unfold ScatterDims.window
  rw [dif_pos (show (1 : Fin S39x12800.rank) ∈ scatter_S39x12800_S1_S39x512_01_n_1_0.sKept by decide)]
  rfl

/-- With the range's first column `s` and the whole range inside the array, update entry (k, d) lands on (k, s + d). -/
theorem resultIdx_at (b : BitVec 32) (s : Nat) (hs : b.toInt = (s : Int)) (hs' : s + 512 ≤ 12800) (k : Fin 39) (d : Fin 512) :
    scatter_S39x12800_S1_S39x512_01_n_1_0.resultIdx? (ix2 k d) (startAt b) = some (ix2 k (⟨s + d.val, by omega⟩ : Fin 12800)) := by
  have e0 : scatter_S39x12800_S1_S39x512_01_n_1_0.start (ix2 k d) (startAt b) 0 + (scatter_S39x12800_S1_S39x512_01_n_1_0.window (ix2 k d) 0 : Int) = ((k.val : Nat) : Int) := by
    rw [start_0, window_0]; exact zero_add _
  have e1 : scatter_S39x12800_S1_S39x512_01_n_1_0.start (ix2 k d) (startAt b) 1 + (scatter_S39x12800_S1_S39x512_01_n_1_0.window (ix2 k d) 1 : Int) = ((s + d.val : Nat) : Int) := by
    rw [start_1, window_1, hs]; exact (Nat.cast_add s d.val).symm
  have h : ∀ a, 0 ≤ scatter_S39x12800_S1_S39x512_01_n_1_0.start (ix2 k d) (startAt b) a + scatter_S39x12800_S1_S39x512_01_n_1_0.window (ix2 k d) a
      ∧ scatter_S39x12800_S1_S39x512_01_n_1_0.start (ix2 k d) (startAt b) a + scatter_S39x12800_S1_S39x512_01_n_1_0.window (ix2 k d) a < S39x12800.size a := by
    refine Fin.forall_fin_two.2 ⟨?_, ?_⟩
    · rw [e0]
      show (0 : Int) ≤ ((k.val : Nat) : Int) ∧ ((k.val : Nat) : Int) < ((39 : Nat) : Int)
      omega
    · rw [e1]
      show (0 : Int) ≤ ((s + d.val : Nat) : Int) ∧ ((s + d.val : Nat) : Int) < ((12800 : Nat) : Int)
      omega
  unfold ScatterDims.resultIdx?
  rw [dif_pos h]
  refine congrArg some (funext ?_)
  refine Fin.forall_fin_two.2 ⟨Fin.ext ?_, Fin.ext ?_⟩
  · show (scatter_S39x12800_S1_S39x512_01_n_1_0.start (ix2 k d) (startAt b) 0 + (scatter_S39x12800_S1_S39x512_01_n_1_0.window (ix2 k d) 0 : Int)).toNat = k.val
    rw [e0]; exact Int.toNat_natCast _
  · show (scatter_S39x12800_S1_S39x512_01_n_1_0.start (ix2 k d) (startAt b) 1 + (scatter_S39x12800_S1_S39x512_01_n_1_0.window (ix2 k d) 1 : Int)).toNat = s + d.val
    rw [e1]; exact Int.toNat_natCast _

/-- No two update entries land on one array entry. -/
theorem resultIdx_inj (b : BitVec 32) (s : Nat) (hs : b.toInt = (s : Int)) (hs' : s + 512 ≤ 12800)
    (j j' : S39x512.Idx) (i : S39x12800.Idx)
    (h1 : scatter_S39x12800_S1_S39x512_01_n_1_0.resultIdx? j (startAt b) = some i) (h2 : scatter_S39x12800_S1_S39x512_01_n_1_0.resultIdx? j' (startAt b) = some i) : j = j' := by
  obtain ⟨k1, d1, rfl⟩ : ∃ (k1 : Fin 39) (d1 : Fin 512), j = ix2 k1 d1 := ⟨j 0, j 1, eq_ix2 j⟩
  obtain ⟨k2, d2, rfl⟩ : ∃ (k2 : Fin 39) (d2 : Fin 512), j' = ix2 k2 d2 := ⟨j' 0, j' 1, eq_ix2 j'⟩
  rw [resultIdx_at b s hs hs'] at h1 h2
  have e := (Option.some.inj h1).trans (Option.some.inj h2).symm
  have e0 : k1 = k2 := congrFun e 0
  have e1 : s + d1.val = s + d2.val := congrArg Fin.val (congrFun e 1)
  have e1' : d1 = d2 := Fin.ext (by omega)
  rw [e0, e1']

/-! ### The sum read at an entry -/

/-- On the range's columns the block's entry is added … -/
theorem addRange_hit (x : FVec Ideal S39x12800 .f32) (upd : FVec Ideal S39x512 .f32) (b : BitVec 32) (s : Nat)
    (hs : b.toInt = (s : Int)) (hs' : s + 512 ≤ 12800) (k : Fin 39) (d : Fin 512) :
    Host.scatter scatter_S39x12800_S1_S39x512_01_n_1_0 FloatOps.addf x (startAt b) upd (ix2 k (⟨s + d.val, by omega⟩ : Fin 12800))
      = x (ix2 k (⟨s + d.val, by omega⟩ : Fin 12800)) + upd (ix2 k d) :=
  (Cert.LibScatter.scatter_apply scatter_S39x12800_S1_S39x512_01_n_1_0 FloatOps.addf x (startAt b) upd
    (fun j j' i => resultIdx_inj b s hs hs' j j' i) _).1 (ix2 k d) (resultIdx_at b s hs hs' k d)

/-- … and every other column is left as it was. -/
theorem addRange_miss (x : FVec Ideal S39x12800 .f32) (upd : FVec Ideal S39x512 .f32) (b : BitVec 32) (s : Nat)
    (hs : b.toInt = (s : Int)) (hs' : s + 512 ≤ 12800) (k : Fin 39) (c : Fin 12800) (hc : c.val < s ∨ s + 512 ≤ c.val) :
    Host.scatter scatter_S39x12800_S1_S39x512_01_n_1_0 FloatOps.addf x (startAt b) upd (ix2 k c) = x (ix2 k c) :=
  (Cert.LibScatter.scatter_apply scatter_S39x12800_S1_S39x512_01_n_1_0 FloatOps.addf x (startAt b) upd
    (fun j j' i => resultIdx_inj b s hs hs' j j' i) _).2 (fun j hj => by
      obtain ⟨k1, d1, rfl⟩ : ∃ (k1 : Fin 39) (d1 : Fin 512), j = ix2 k1 d1 := ⟨j 0, j 1, eq_ix2 j⟩
      rw [resultIdx_at b s hs hs'] at hj
      have e1 : s + d1.val = c.val := congrArg Fin.val (congrFun (Option.some.inj hj) 1)
      omega)

end Cert.KernelIdeal.HostValue

end
-- ==== Proof.WcValue.lean ====
/-
  The combined weight the dense product reads, entry by entry.  At input column k, token t, feature d it is the
  single-sensor part, plus the routed forehand weight when t is token 0 (columns 0 … 511 of the flattened axis),
  plus the routed palm weight when t is token 2 (columns 1024 … 1535); the other tokens' columns lie in neither
  range.
-/
import proofs.«119597_j64269890618106_2_alg».proof.Proof.WcTerm
import proofs.«119597_j64269890618106_2_alg».proof.Proof.WcParts
import proofs.«119597_j64269890618106_2_alg».proof.Proof.WcScatter

noncomputable section

open scoped BigOperators

namespace Cert.KernelIdeal.HostValue

open Cert.KernelIdeal Cert.KernelIdeal.Gen Idealize.ShloMosaic Idealize.ShloMosaic.TcCoe Idealize.ShloMosaic.ValueIdx
  Idealize.SL.Sem

/-- The combined weight of three weight arrays, at (k, 512 t + d). -/
theorem combined_apply (Wf : FVec Ideal S512x9 .f32) (Wp : FVec Ideal S512x7 .f32) (Ws : FVec Ideal S23x512 .f32)
    (k : Fin 39) (t : Fin 25) (d : Fin 512) :
    combined Wf Wp Ws (ix2 k (Cert.Spec.col t d)) = Cert.Spec.Wc Wf Wp Ws k t d := by
  have hz : (0#32 : BitVec 32).toInt = ((0 : Nat) : Int) := by decide
  have hk : (1024#32 : BitVec 32).toInt = ((1024 : Nat) : Int) := by decide
  have hcol : (Cert.Spec.col t d).val = t.val * 512 + d.val := rfl
  unfold combined Cert.Spec.Wc
  by_cases h0 : t.val = 0
  · -- token 0: columns 0 … 511, inside the first range and outside the second
    have hc : Cert.Spec.col t d = (⟨0 + d.val, by omega⟩ : Fin 12800) := Fin.ext (by rw [hcol]; show _ = 0 + d.val; omega)
    have hit := addRange_hit (singProd Ws) (foreProd Wf) 0#32 0 hz (by omega) k d
    rw [← hc] at hit
    rw [addRange_miss _ _ 1024#32 1024 hk (by omega) k _ (Or.inl (by rw [hcol]; omega)), if_pos h0]
    unfold withFore
    rw [hit, singProd_apply, foreProd_apply]
  · by_cases h2 : t.val = 2
    · -- token 2: columns 1024 … 1535, inside the second range and outside the first
      have hc : Cert.Spec.col t d = (⟨1024 + d.val, by omega⟩ : Fin 12800) :=
        Fin.ext (by rw [hcol]; show _ = 1024 + d.val; omega)
      have hit := addRange_hit (withFore Wf Ws) (palmProd Wp) 1024#32 1024 hk (by omega) k d
      rw [← hc] at hit
      rw [hit, if_neg h0, if_pos h2]
      unfold withFore
      rw [addRange_miss _ _ 0#32 0 hz (by omega) k _ (Or.inr (by rw [hcol]; omega)), singProd_apply, palmProd_apply]
    · -- any other token: outside both ranges
      rw [addRange_miss _ _ 1024#32 1024 hk (by omega) k _ (by rw [hcol]; omega), if_neg h0, if_neg h2]
      unfold withFore
      rw [addRange_miss _ _ 0#32 0 hz (by omega) k _ (Or.inr (by rw [hcol]; omega)), singProd_apply]

/-- The second operand of the dense product, as the region finds it, is the specification's combined weight of the
    launched weight arrays. -/
theorem Wc_apply (m : (ℓ : Loc nD τ sig) → Buf (Elt Ideal) ℓ) (c : Dev nD) (k : Fin 39) (t : Fin 25) (d : Fin 512) :
    (Gen.V (F := Ideal) m c main_v14 : S39x12800.Idx → EReal) (ix2 k (Cert.Spec.col t d))
      = Cert.Spec.Wc (m ((c : Thread nD τ).loc main_arg1)) (m ((c : Thread nD τ).loc main_arg3))
          (m ((c : Thread nD τ).loc main_arg5)) k t d := by
  rw [V_main_v14]
  exact combined_apply _ _ _ k t d

end Cert.KernelIdeal.HostValue

end
-- ==== Proof.BcTable.lean ====
/-
  The one-hot placement table of the twenty-three single-feature sensors.  The kernel's program carries it as a
  literal 23×25 array of words, row `j` holding the word of 1.0 in column `TOK j` (the token slot of sensor `j`)
  and the word of 0.0 elsewhere.  Here the words are compared with that description entry by entry, and the array
  of extended reals they denote is read at an index: entry (j, t) is `hot (TOK j) t`.
-/
import proofs.«119597_j64269890618106_2_alg».proof.Proof.Gen.KernelIdeal
import proofs.«119597_j64269890618106_2_alg».proof.Proof.Spec
import Idealize.ShloMosaic.PureOps.Ideal.Laws

noncomputable section

namespace Cert.KernelIdeal.HostValue.Bc

open Cert.KernelIdeal Cert.KernelIdeal.Gen Idealize.ShloMosaic Idealize.ShloMosaic.ValueIdx

/-- Word by word: position `25 j + t` of the literal table holds the word of 1.0 when `t` is sensor `j`'s token
    slot and the zero word otherwise (575 entries, each computed). -/
theorem lit3_word : ∀ (j : Fin 23) (t : Fin 25),
    lit3 ⟨j.val * 25 + t.val, by have := j.isLt; have := t.isLt; omega⟩
      = if Cert.Spec.TOK j = t then 0x3F800000#32 else 0x00000000#32 := by decide +kernel

/-- The table as an array of extended reals: each word read as a binary32 number. -/
def bcTbl : S23x25.Idx → EReal := fun i => FloatOps.ofBits (F := Ideal) .f32 (lit3 (S23x25.rowMajor i))

/-- The row-major position of entry (j, t) of a 23×25 array is `25 j + t`. -/
theorem bcTbl_pos (j : Fin 23) (t : Fin 25) :
    S23x25.rowMajor (ix2 j t) = (⟨j.val * 25 + t.val, by have := j.isLt; have := t.isLt; omega⟩ : Fin 575) :=
  Fin.ext (by rw [Shape.rowMajor_val_two]; rfl)

/-- Entry (j, t) of the table is 1 when `t` is sensor `j`'s token slot and 0 otherwise. -/
theorem bcTbl_apply (j : Fin 23) (t : Fin 25) : bcTbl (ix2 j t) = Cert.Spec.hot (Cert.Spec.TOK j) t := by
  show Ideal.ofBits .f32 (lit3 (S23x25.rowMajor (ix2 j t))) = _
  rw [bcTbl_pos, lit3_word]
  unfold Cert.Spec.hot
  by_cases h : Cert.Spec.TOK j = t
  · rw [if_pos h, if_pos h]; exact IdealRules.sign_bit.ideal_onePat .f32
  · rw [if_neg h, if_neg h]; exact Ideal.ofBits_zero_f32

end Cert.KernelIdeal.HostValue.Bc

end
-- ==== Proof.BcDot.lean ====
/-
  The bias table before the two row additions: the product of the transposed one-hot placement table (25×23) with
  the sensors' bias rows (23×512).  Entry (t, d) is the sum over the sensors `j` of `hot (TOK j) t` times sensor
  `j`'s bias at feature `d`: the bias row of the sensor whose token slot is `t`, and an empty sum's zero in the
  two slots (0 and 2) that no single-feature sensor fills.
-/
import proofs.«119597_j64269890618106_2_alg».proof.Proof.BcTable
import Idealize.ShloMosaic.Lib.Pipeline.Value

noncomputable section

namespace Cert.KernelIdeal.HostValue.Bc

open Cert.KernelIdeal Cert.KernelIdeal.Gen Idealize.ShloMosaic Idealize.ShloMosaic.ValueIdx

/-- The placement table transposed: rows are token slots, columns sensors. -/
def bcV15 : S25x23.Idx → EReal := transpose S25x23 [1, 0] bcTbl transposes_S23x25_S25x23_1_0

/-- Entry (t, j) of the transposed table is entry (j, t) of the table. -/
theorem bcV15_apply (t : Fin 25) (j : Fin 23) : bcV15 (ix2 t j) = Cert.Spec.hot (Cert.Spec.TOK j) t := by
  unfold bcV15
  rw [transpose_apply [1, 0] bcTbl transposes_S23x25_S25x23_1_0 (ix2 t j) (ix2 j t)
    (fun b => by match b with | ⟨0, _⟩ => rfl | ⟨1, _⟩ => rfl)]
  exact bcTbl_apply j t

/-! The product's operand indices, axis by axis: the left operand is read at (row of the result, contraction
    position), the right one at (contraction position, column of the result). -/

theorem bcLhs0 (i : S25x512.Idx) (q : dot_S25x23_S23x512_S25x512_1_0_0_1_n_n.contr.Idx) :
    (dot_S25x23_S23x512_S25x512_1_0_0_1_n_n.lhsIdx i q 0).val = (i 0).val := by
  unfold DotDims.lhsIdx
  rw [dif_neg (show ¬(0 : Fin S25x23.rank) ∈ dot_S25x23_S23x512_S25x512_1_0_0_1_n_n.lhsBatch by decide),
    dif_pos (show (0 : Fin S25x23.rank) ∈ dot_S25x23_S23x512_S25x512_1_0_0_1_n_n.lhsNonContracting by decide)]
  rfl

theorem bcLhs1 (i : S25x512.Idx) (q : dot_S25x23_S23x512_S25x512_1_0_0_1_n_n.contr.Idx) :
    (dot_S25x23_S23x512_S25x512_1_0_0_1_n_n.lhsIdx i q 1).val = (q ⟨0, by decide⟩).val :=
  dot_S25x23_S23x512_S25x512_1_0_0_1_n_n.lhsIdx_val_of_single rfl i q

theorem bcRhs0 (i : S25x512.Idx) (q : dot_S25x23_S23x512_S25x512_1_0_0_1_n_n.contr.Idx) :
    (dot_S25x23_S23x512_S25x512_1_0_0_1_n_n.rhsIdx i q 0).val = (q ⟨0, by decide⟩).val :=
  dot_S25x23_S23x512_S25x512_1_0_0_1_n_n.rhsIdx_val_of_single rfl i q

theorem bcRhs1 (i : S25x512.Idx) (q : dot_S25x23_S23x512_S25x512_1_0_0_1_n_n.contr.Idx) :
    (dot_S25x23_S23x512_S25x512_1_0_0_1_n_n.rhsIdx i q 1).val = (i 1).val := by
  unfold DotDims.rhsIdx
  rw [dif_neg (show ¬(1 : Fin S23x512.rank) ∈ dot_S25x23_S23x512_S25x512_1_0_0_1_n_n.rhsBatch by decide),
    dif_pos (show (1 : Fin S23x512.rank) ∈ dot_S25x23_S23x512_S25x512_1_0_0_1_n_n.rhsNonContracting by decide)]
  rfl

/-- A 25×23 by 23×512 product of extended reals read at (t, d): the sum over the 23 contraction positions. -/
theorem bcDot_apply (A : FVec Ideal S25x23 .f32) (B : FVec Ideal S23x512 .f32) (t : Fin 25) (d : Fin 512) :
    Host.dotGeneral (F := Ideal) dot_S25x23_S23x512_S25x512_1_0_0_1_n_n none A B (ix2 t d) = ∑ j : Fin 23, A (ix2 t j) * B (ix2 j d) := by
  simp only [Host.dotGeneral]
  rw [Ideal.dotGeneral_apply, ← Equiv.sum_comp (contrEquiv1 dot_S25x23_S23x512_S25x512_1_0_0_1_n_n 23 rfl rfl).symm]
  refine Finset.sum_congr rfl fun k _ => ?_
  have hk := contrEquiv1_symm_val dot_S25x23_S23x512_S25x512_1_0_0_1_n_n 23 rfl rfl k
  have el : dot_S25x23_S23x512_S25x512_1_0_0_1_n_n.lhsIdx (ix2 t d) ((contrEquiv1 dot_S25x23_S23x512_S25x512_1_0_0_1_n_n 23 rfl rfl).symm k) = ix2 t k :=
    funext fun a => Fin.ext (by
      match a with
      | ⟨0, _⟩ => exact bcLhs0 _ _
      | ⟨1, _⟩ => exact (bcLhs1 _ _).trans hk)
  have er : dot_S25x23_S23x512_S25x512_1_0_0_1_n_n.rhsIdx (ix2 t d) ((contrEquiv1 dot_S25x23_S23x512_S25x512_1_0_0_1_n_n 23 rfl rfl).symm k) = ix2 k d :=
    funext fun a => Fin.ext (by
      match a with
      | ⟨0, _⟩ => exact (bcRhs0 _ _).trans hk
      | ⟨1, _⟩ => exact bcRhs1 _ _)
  rw [el, er]

/-- The bias table before the row additions, from the sensors' bias rows. -/
def bcV16 (bs : FVec Ideal S23x512 .f32) : FVec Ideal S25x512 .f32 :=
  Host.dotGeneral (F := Ideal) (φ₁ := .f32) (φ₂ := .f32) dot_S25x23_S23x512_S25x512_1_0_0_1_n_n none bcV15 bs

/-- Entry (t, d): the placement-weighted sum of the sensors' biases at feature `d`. -/
theorem bcV16_apply (bs : FVec Ideal S23x512 .f32) (t : Fin 25) (d : Fin 512) :
    bcV16 bs (ix2 t d) = ∑ j : Fin 23, Cert.Spec.hot (Cert.Spec.TOK j) t * bs (ix2 j d) := by
  unfold bcV16
  rw [bcDot_apply]
  refine Finset.sum_congr rfl fun j _ => ?_
  rw [bcV15_apply]

end Cert.KernelIdeal.HostValue.Bc

end
-- ==== Proof.BcScatter.lean ====
/-
  The two row scatters that add the forehand bias into token row 0 and the palm bias into token row 2 of the
  25×512 bias table.  Each is a scatter of a 512-vector into a 25×512 array at ONE start index, a row number read
  off a one-element index vector: update position `d` lands on element (row, d).  So distinct positions land on
  distinct elements, row `row` receives the combiner of its old entry and the update's, and every other row is
  left alone.
-/
import proofs.«119597_j64269890618106_2_alg».proof.Proof.Gen.KernelIdeal
import proofs.«119597_j64269890618106_2_alg».proof.Proof.LibScatter
import Idealize.ShloMosaic.Lib.ValueIdx

noncomputable section

namespace Cert.KernelIdeal.HostValue.Bc

open Cert.KernelIdeal Cert.KernelIdeal.Gen Idealize.ShloMosaic Idealize.ShloMosaic.ValueIdx

/-- On the row axis the window starts at the index vector's one entry, read signed. -/
theorem bcStart0 (j : S512.Idx) (idx : IVec S1 32) :
    scatter_S25x512_S1_S512_0_0_0_0.start j idx (0 : Fin 2) = (idx (ix1 (0 : Fin 1))).toInt := by
  unfold ScatterDims.start
  rw [dif_pos (show (0 : Fin S25x512.rank) ∈ scatter_S25x512_S1_S512_0_0_0_0.scatterDimsToOperandDims by decide)]
  refine congrArg (fun k => (idx k).toInt) (funext fun b => ?_)
  match b with
  | ⟨0, _⟩ => exact Fin.ext rfl

/-- On the column axis the window starts at 0. -/
theorem bcStart1 (j : S512.Idx) (idx : IVec S1 32) :
    scatter_S25x512_S1_S512_0_0_0_0.start j idx (1 : Fin 2) = 0 := by
  unfold ScatterDims.start
  rw [dif_neg (show ¬(1 : Fin S25x512.rank) ∈ scatter_S25x512_S1_S512_0_0_0_0.scatterDimsToOperandDims by decide)]

/-- The row axis is inserted: the window has no extent there. -/
theorem bcWindow0 (j : S512.Idx) : scatter_S25x512_S1_S512_0_0_0_0.window j (0 : Fin 2) = 0 := by
  unfold ScatterDims.window
  rw [dif_neg (show ¬(0 : Fin S25x512.rank) ∈ scatter_S25x512_S1_S512_0_0_0_0.sKept by decide)]

/-- On the column axis the window coordinate is the update's position. -/
theorem bcWindow1 (j : S512.Idx) : scatter_S25x512_S1_S512_0_0_0_0.window j (1 : Fin 2) = (j 0).val := by
  unfold ScatterDims.window
  rw [dif_pos (show (1 : Fin S25x512.rank) ∈ scatter_S25x512_S1_S512_0_0_0_0.sKept by decide)]
  rfl

/-- With the index vector holding row `r`, update position `d` lands on element (r, d). -/
theorem bcResultIdx (idx : IVec S1 32) (r : Fin 25) (hr : (idx (ix1 (0 : Fin 1))).toInt = (r.val : Int)) (d : Fin 512) :
    scatter_S25x512_S1_S512_0_0_0_0.resultIdx? (ix1 d) idx = some (ix2 r d) := by
  have hr' := r.isLt
  have hd' := d.isLt
  have h : ∀ a : Fin 2, 0 ≤ scatter_S25x512_S1_S512_0_0_0_0.start (ix1 d) idx a + scatter_S25x512_S1_S512_0_0_0_0.window (ix1 d) a
      ∧ scatter_S25x512_S1_S512_0_0_0_0.start (ix1 d) idx a + scatter_S25x512_S1_S512_0_0_0_0.window (ix1 d) a < S25x512.size a := by
    refine Fin.forall_fin_two.2 ⟨?_, ?_⟩
    · rw [bcStart0, bcWindow0, hr]
      show (0 : Int) ≤ (r.val : Int) + ((0 : Nat) : Int) ∧ (r.val : Int) + ((0 : Nat) : Int) < ((25 : Nat) : Int)
      omega
    · rw [bcStart1, bcWindow1]
      show (0 : Int) ≤ 0 + ((d.val : Nat) : Int) ∧ (0 : Int) + ((d.val : Nat) : Int) < ((512 : Nat) : Int)
      omega
  unfold ScatterDims.resultIdx?
  rw [dif_pos h]
  refine congrArg some (funext fun a => Fin.ext ?_)
  have key : ∀ a : Fin 2, (scatter_S25x512_S1_S512_0_0_0_0.start (ix1 d) idx a
      + scatter_S25x512_S1_S512_0_0_0_0.window (ix1 d) a).toNat = (ix2 r d a).val := by
    refine Fin.forall_fin_two.2 ⟨?_, ?_⟩
    · rw [bcStart0, bcWindow0, hr]
      show ((r.val : Int) + ((0 : Nat) : Int)).toNat = r.val
      omega
    · rw [bcStart1, bcWindow1]
      show ((0 : Int) + ((d.val : Nat) : Int)).toNat = d.val
      omega
  exact key a

/-- The scatter at row `r` read at an element: the combiner of the old entry and the update's on row `r`, the old
    entry on every other row. -/
theorem bcScatter_apply {α : Type} (f : α → α → α) (x : S25x512.Idx → α) (idx : IVec S1 32) (upd : S512.Idx → α)
    (r : Fin 25) (hr : (idx (ix1 (0 : Fin 1))).toInt = (r.val : Int)) (t : Fin 25) (d : Fin 512) :
    Host.scatter scatter_S25x512_S1_S512_0_0_0_0 f x idx upd (ix2 t d)
      = if t = r then f (x (ix2 t d)) (upd (ix1 d)) else x (ix2 t d) := by
  have hland : ∀ j : S512.Idx, scatter_S25x512_S1_S512_0_0_0_0.resultIdx? j idx = some (ix2 r (j 0)) := fun j => by
    conv_lhs => rw [eq_ix1 j]
    exact bcResultIdx idx r hr (j 0)
  have hinj : ∀ (j j' : S512.Idx) (i : S25x512.Idx), scatter_S25x512_S1_S512_0_0_0_0.resultIdx? j idx = some i →
      scatter_S25x512_S1_S512_0_0_0_0.resultIdx? j' idx = some i → j = j' := fun j j' i h h' => by
    rw [hland j] at h
    rw [hland j'] at h'
    have e : ix2 r (j 0) = ix2 r (j' 0) := Option.some.inj (h.trans h'.symm)
    have e0 : j 0 = j' 0 := congrFun e (1 : Fin 2)
    rw [eq_ix1 j, eq_ix1 j', e0]
  have hs := Cert.LibScatter.scatter_apply scatter_S25x512_S1_S512_0_0_0_0 f x idx upd hinj (ix2 t d)
  by_cases htr : t = r
  · rw [if_pos htr]
    subst htr
    exact hs.1 (ix1 d) (bcResultIdx idx t hr d)
  · rw [if_neg htr]
    refine hs.2 fun j hj => htr ?_
    rw [hland j] at hj
    have e : ix2 r (j 0) = ix2 t d := Option.some.inj hj
    exact (congrFun e (0 : Fin 2)).symm

end Cert.KernelIdeal.HostValue.Bc

end
-- ==== Proof.BcValue.lean ====
/-
  The combined bias as the kernel's program computes it, read entry by entry.  The program builds a 25×512 table:
  the placement-weighted sum of the single-feature sensors' bias rows, then the forehand bias added into row 0 and
  the palm bias into row 2; it then flattens the table row by row to a 12800-vector and views that as one row of a
  1×12800 array.  Column `512 t + d` of that row is therefore entry (t, d) of the table, and the table's three kinds
  of rows are the three branches of the specification's `bc`.
-/
import proofs.«119597_j64269890618106_2_alg».proof.Proof.Gen.KernelIdeal.Frame
import proofs.«119597_j64269890618106_2_alg».proof.Proof.BcDot
import proofs.«119597_j64269890618106_2_alg».proof.Proof.BcScatter
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx Idealize.SL.Sem

namespace Bc

/-- The one-element index vector holding row number 0. -/
def bcRow0 : IVec S1 32 := broadcastInDim S1 ![] bcast_S_S1 (constantI S_ 32 0#32)
/-- The one-element index vector holding row number 2. -/
def bcRow2 : IVec S1 32 := broadcastInDim S1 ![] bcast_S_S1 (constantI S_ 32 2#32)

theorem bcRow0_val : (bcRow0 (ix1 (0 : Fin 1))).toInt = (((0 : Fin 25)).val : Int) := by
  show (0#32 : BitVec 32).toInt = _
  decide
theorem bcRow2_val : (bcRow2 (ix1 (0 : Fin 1))).toInt = (((2 : Fin 25)).val : Int) := by
  show (2#32 : BitVec 32).toInt = _
  decide

/-- The table after the forehand bias is added into row 0. -/
def bcV18 (bs : FVec Ideal S23x512 .f32) (bf : FVec Ideal S512 .f32) : FVec Ideal S25x512 .f32 :=
  Host.scatter scatter_S25x512_S1_S512_0_0_0_0 FloatOps.addf (bcV16 bs) bcRow0 bf

/-- The table after the palm bias is added into row 2. -/
def bcV20 (bs : FVec Ideal S23x512 .f32) (bf bp : FVec Ideal S512 .f32) : FVec Ideal S25x512 .f32 :=
  Host.scatter scatter_S25x512_S1_S512_0_0_0_0 FloatOps.addf (bcV18 bs bf) bcRow2 bp

theorem bcV18_apply (bs : FVec Ideal S23x512 .f32) (bf : FVec Ideal S512 .f32) (t : Fin 25) (d : Fin 512) :
    bcV18 bs bf (ix2 t d) = if t = (0 : Fin 25) then bcV16 bs (ix2 t d) + bf (ix1 d) else bcV16 bs (ix2 t d) := by
  unfold bcV18
  rw [bcScatter_apply _ _ _ _ (0 : Fin 25) bcRow0_val]
  rfl

theorem bcV20_apply (bs : FVec Ideal S23x512 .f32) (bf bp : FVec Ideal S512 .f32) (t : Fin 25) (d : Fin 512) :
    bcV20 bs bf bp (ix2 t d) = if t = (2 : Fin 25) then bcV18 bs bf (ix2 t d) + bp (ix1 d) else bcV18 bs bf (ix2 t d) := by
  unfold bcV20
  rw [bcScatter_apply _ _ _ _ (2 : Fin 25) bcRow2_val]
  rfl

/-- A 25×512 table flattened row by row and viewed as the one row of a 1×12800 array. -/
def bcFlat (x : S25x512.Idx → EReal) : S1x12800.Idx → EReal :=
  fun i => shapeCast S1x12800 (fun i => shapeCast S12800 x shapeCasts_S25x512_S12800 i) shapeCasts_S12800_S1x12800 i

/-- Column `512 t + d` of the flattened row is entry (t, d) of the table. -/
theorem bcFlat_apply (x : S25x512.Idx → EReal) (t : Fin 25) (d : Fin 512) :
    bcFlat x (ix2 (0 : Fin 1) (Cert.Spec.col t d)) = x (ix2 t d) := by
  unfold bcFlat
  show shapeCast S1x12800 (fun i => shapeCast S12800 x shapeCasts_S25x512_S12800 i) shapeCasts_S12800_S1x12800
    (ix2 (0 : Fin 1) (Cert.Spec.col t d)) = _
  rw [shapeCast_a_1a_apply]
  exact shapeCast_apply x shapeCasts_S25x512_S12800 (ix1 (Cert.Spec.col t d)) (ix2 t d)
    (by rw [Shape.rowMajor_val_two, Shape.rowMajor_val_one]; rfl)

end Bc

/-- The combined-bias buffer, as the region finds it, is the flattened table built from the three bias arguments. -/
theorem bc_term (m : (ℓ : Loc nD τ sig) → Buf (Elt Ideal) ℓ) (c : Dev nD) :
    (Gen.V (F := Ideal) m c main_v22 : S1x12800.Idx → EReal)
      = Bc.bcFlat (Bc.bcV20 (m ((c : Thread nD τ).loc main_arg6)) (m ((c : Thread nD τ).loc main_arg2))
          (m ((c : Thread nD τ).loc main_arg4))) := by
  show StableHlo.after hostOps0 (fun b => m (c, b)) (Proc.devRef .tc main_v22) = _
  after_results_simp
  rfl

/-- Column `512 t + d` of the combined-bias buffer is the specification's combined bias at (t, d). -/
theorem bc_apply (m : (ℓ : Loc nD τ sig) → Buf (Elt Ideal) ℓ) (c : Dev nD) (t : Fin 25) (d : Fin 512) :
    (Gen.V (F := Ideal) m c main_v22 : S1x12800.Idx → EReal) (ix2 (0 : Fin 1) (Cert.Spec.col t d))
      = Cert.Spec.bc (m ((c : Thread nD τ).loc main_arg2)) (m ((c : Thread nD τ).loc main_arg4)) (m ((c : Thread nD τ).loc main_arg6)) t d := by
  refine (congrFun (bc_term m c) _).trans ?_
  rw [Bc.bcFlat_apply, Bc.bcV20_apply, Bc.bcV18_apply, Bc.bcV16_apply]
  unfold Cert.Spec.bc
  by_cases h0 : t.val = 0
  · have e0 : t = (0 : Fin 25) := Fin.ext h0
    have n2 : ¬ t = (2 : Fin 25) := by rw [e0]; decide
    rw [if_neg n2, if_pos e0, if_pos h0]
  · have n0 : ¬ t = (0 : Fin 25) := fun e => h0 (by rw [e]; rfl)
    by_cases h2 : t.val = 2
    · have e2 : t = (2 : Fin 25) := Fin.ext h2
      rw [if_pos e2, if_neg n0, if_neg h0, if_pos h2]
    · have n2 : ¬ t = (2 : Fin 25) := fun e => h2 (by rw [e]; rfl)
      rw [if_neg n2, if_neg n0, if_neg h0, if_neg h2]

end Cert.KernelIdeal.HostValue

end
-- ==== Proof.KValue.lean ====
/-
  The kernel program's run with its result named by the specification: the combined weight and the combined bias
  the host operations before the region build are, entry by entry, the ones the specification's dense product is
  stated over, and that dense product is the specification.
-/
import proofs.«119597_j64269890618106_2_alg».proof.Proof.KRun
import proofs.«119597_j64269890618106_2_alg».proof.Proof.WcValue
import proofs.«119597_j64269890618106_2_alg».proof.Proof.BcValue

noncomputable section

namespace Cert.KernelIdeal.Run

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The result array is the specification of the seven argument arrays. -/
theorem out_eq (c : Dev nD) :
    out m c = Cert.Spec.Gfun (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) :=
  out_eq_spec m c (Cert.KernelIdeal.HostValue.Wc_apply m c) (Cert.KernelIdeal.HostValue.bc_apply m c)

/-- Every weakly fair execution of the kernel program terminates with the result buffer at the specification of the
    argument arrays and the seven arguments unchanged. -/
theorem run : θ_run defs (onTc (τ := τ) (main (F := Ideal))) ⟨m, fun _ => 0, ρ⟩ fun r => ∀ c : Dev nD,
      r.2.mem ((c.tc : Thread nD τ).loc main_v24) = Cert.Spec.Gfun (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out_eq m c), (h c).2⟩) (run_out m ρ)

end Cert.KernelIdeal.Run

end
-- ==== Proof.RefRun.lean ====
/-
  The reference program as a straight line of its 47 host operations, and its run: every weakly fair execution
  terminates with every buffer at the fold of the operations' results over the launch contents.  The values the
  fold leaves in the result buffer and in the seven argument buffers are read off in the modules that import
  this one.
-/
import proofs.«119597_j64269890618106_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 47 operations, in order. -/
abbrev ops : List (HloOp τ sig (Elt F)) :=
  [ StableHlo.nullary main_c (fun i => lit0 (S9.rowMajor i)),
    StableHlo.nullary main_c_0 (constantI S9 1 0#1),
    StableHlo.nullary main_c_1 (fun i => lit1 (S7.rowMajor i)),
    StableHlo.nullary main_c_2 (constantI S7 1 0#1),
    StableHlo.nullary main_c_3 (fun i => lit2 (S23.rowMajor i)),
    StableHlo.nullary main_c_4 (constantI S23 1 0#1),
    StableHlo.nullary main_c_5 (constantI S_ 32 39#32),
    StableHlo.unary main_c_5 main_v0 (broadcastInDim S9 ![] bcast_S_S9 : (⟨S_, .i32⟩ : BufTy).Contents (Elt F) → (⟨S9, .i32⟩ : BufTy).Contents (Elt F)),
    StableHlo.binary main_c main_v0 main_v1 (addi : (⟨S9, .i32⟩ : BufTy).Contents (Elt F) → (⟨S9, .i32⟩ : BufTy).Contents (Elt F) → (⟨S9, .i32⟩ : BufTy).Contents (Elt F)),
    StableHlo.ternary main_c_0 main_v1 main_c main_v2 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    StableHlo.unary main_v2 main_v3 (broadcastInDim S9x1 ![0] bcast_S9_S9x1_0 : (⟨S9, .i32⟩ : BufTy).Contents (Elt F) → (⟨S9x1, .i32⟩ : BufTy).Contents (Elt F)),
    StableHlo.binary main_arg0 main_v3 main_v4 ((fun x i => Host.gather gather_S8192x39_S9x1_S8192x9_0_1_n_n_1_1_81921 x i) : (⟨S8192x39, .f32⟩ : BufTy).Contents (Elt F) → (⟨S9x1, .i32⟩ : BufTy).Contents (Elt F) → (⟨S8192x9, .f32⟩ : BufTy).Contents (Elt F)),
    StableHlo.unary main_arg1 main_v5 ((transpose S9x512 [1, 0] · transposes_S512x9_S9x512_1_0) : (⟨S512x9, .f32⟩ : BufTy).Contents (Elt F) → (⟨S9x512, .f32⟩ : BufTy).Contents (Elt F)),
    StableHlo.binary main_v4 main_v5 main_v6 ((fun l r => Host.dotGeneral dot_S8192x9_S9x512_S8192x512_1_0_0_1_n_n none l r) : (⟨S8192x9, .f32⟩ : BufTy).Contents (Elt F) → (⟨S9x512, .f32⟩ : BufTy).Contents (Elt F) → (⟨S8192x512, .f32⟩ : BufTy).Contents (Elt F)),
    StableHlo.unary main_arg2 main_v7 (broadcastInDim S1x512 ![1] bcast_S512_S1x512_1 : (⟨S512, .f32⟩ : BufTy).Contents (Elt F) → (⟨S1x512, .f32⟩ : BufTy).Contents (Elt F)),
    StableHlo.unary main_v7 main_v8 (broadcastInDim S8192x512 ![0, 1] bcast_S1x512_S8192x512_0_1 : (⟨S1x512, .f32⟩ : BufTy).Contents (Elt F) → (⟨S8192x512, .f32⟩ : BufTy).Contents (Elt F)),
    StableHlo.binary main_v6 main_v8 main_v9 (addf : (⟨S8192x512, .f32⟩ : BufTy).Contents (Elt F) → (⟨S8192x512, .f32⟩ : BufTy).Contents (Elt F) → (⟨S8192x512, .f32⟩ : BufTy).Contents (Elt F)),
    StableHlo.nullary main_c_6 (constantI S_ 32 39#32),
    StableHlo.unary main_c_6 main_v10 (broadcastInDim S7 ![] bcast_S_S7 : (⟨S_, .i32⟩ : BufTy).Contents (Elt F) → (⟨S7, .i32⟩ : BufTy).Contents (Elt F)),
    StableHlo.binary main_c_1 main_v10 main_v11 (addi : (⟨S7, .i32⟩ : BufTy).Contents (Elt F) → (⟨S7, .i32⟩ : BufTy).Contents (Elt F) → (⟨S7, .i32⟩ : BufTy).Contents (Elt F)),
    StableHlo.ternary main_c_2 main_v11 main_c_1 main_v12 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.unary main_v12 main_v13 (broadcastInDim S7x1 ![0] bcast_S7_S7x1_0 : (⟨S7, .i32⟩ : BufTy).Contents (Elt F) → (⟨S7x1, .i32⟩ : BufTy).Contents (Elt F)),
    StableHlo.binary main_arg0 main_v13 main_v14 ((fun x i => Host.gather gather_S8192x39_S7x1_S8192x7_0_1_n_n_1_1_81921 x i) : (⟨S8192x39, .f32⟩ : BufTy).Contents (Elt F) → (⟨S7x1, .i32⟩ : BufTy).Contents (Elt F) → (⟨S8192x7, .f32⟩ : BufTy).Contents (Elt F)),
    StableHlo.unary main_arg3 main_v15 ((transpose S7x512 [1, 0] · transposes_S512x7_S7x512_1_0) : (⟨S512x7, .f32⟩ : BufTy).Contents (Elt F) → (⟨S7x512, .f32⟩ : BufTy).Contents (Elt F)),
    StableHlo.binary main_v14 main_v15 main_v16 ((fun l r => Host.dotGeneral dot_S8192x7_S7x512_S8192x512_1_0_0_1_n_n none l r) : (⟨S8192x7, .f32⟩ : BufTy).Contents (Elt F) → (⟨S7x512, .f32⟩ : BufTy).Contents (Elt F) → (⟨S8192x512, .f32⟩ : BufTy).Contents (Elt F)),
    StableHlo.unary main_arg4 main_v17 (broadcastInDim S1x512 ![1] bcast_S512_S1x512_1 : (⟨S512, .f32⟩ : BufTy).Contents (Elt F) → (⟨S1x512, .f32⟩ : BufTy).Contents (Elt F)),
    StableHlo.unary main_v17 main_v18 (broadcastInDim S8192x512 ![0, 1] bcast_S1x512_S8192x512_0_1 : (⟨S1x512, .f32⟩ : BufTy).Contents (Elt F) → (⟨S8192x512, .f32⟩ : BufTy).Contents (Elt F)),
    StableHlo.binary main_v16 main_v18 main_v19 (addf : (⟨S8192x512, .f32⟩ : BufTy).Contents (Elt F) → (⟨S8192x512, .f32⟩ : BufTy).Contents (Elt F) → (⟨S8192x512, .f32⟩ : BufTy).Contents (Elt F)),
    StableHlo.nullary main_c_7 (constantI S_ 32 39#32),
    StableHlo.unary main_c_7 main_v20 (broadcastInDim S23 ![] bcast_S_S23 : (⟨S_, .i32⟩ : BufTy).Contents (Elt F) → (⟨S23, .i32⟩ : BufTy).Contents (Elt F)),
    StableHlo.binary main_c_3 main_v20 main_v21 (addi : (⟨S23, .i32⟩ : BufTy).Contents (Elt F) → (⟨S23, .i32⟩ : BufTy).Contents (Elt F) → (⟨S23, .i32⟩ : BufTy).Contents (Elt F)),
    StableHlo.ternary main_c_4 main_v21 main_c_3 main_v22 (select : (⟨S23, .i1⟩ : BufTy).Contents (Elt F) → (⟨S23, .i32⟩ : BufTy).Contents (Elt F) → (⟨S23, .i32⟩ : BufTy).Contents (Elt F) → (⟨S23, .i32⟩ : BufTy).Contents (Elt F)),
    StableHlo.unary main_v22 main_v23 (broadcastInDim S23x1 ![0] bcast_S23_S23x1_0 : (⟨S23, .i32⟩ : BufTy).Contents (Elt F) → (⟨S23x1, .i32⟩ : BufTy).Contents (Elt F)),
    StableHlo.binary main_arg0 main_v23 main_v24 ((fun x i => Host.gather gather_S8192x39_S23x1_S8192x23_0_1_n_n_1_1_81921 x i) : (⟨S8192x39, .f32⟩ : BufTy).Contents (Elt F) → (⟨S23x1, .i32⟩ : BufTy).Contents (Elt F) → (⟨S8192x23, .f32⟩ : BufTy).Contents (Elt F)),
    StableHlo.unary main_v24 main_v25 (broadcastInDim S8192x23x1 ![0, 1] bcast_S8192x23_S8192x23x1_0_1 : (⟨S8192x23, .f32⟩ : BufTy).Contents (Elt F) → (⟨S8192x23x1, .f32⟩ : BufTy).Contents (Elt F)),
    StableHlo.unary main_arg5 main_v26 (broadcastInDim S1x23x512 ![1, 2] bcast_S23x512_S1x23x512_1_2 : (⟨S23x512, .f32⟩ : BufTy).Contents (Elt F) → (⟨S1x23x512, .f32⟩ : BufTy).Contents (Elt F)),
    StableHlo.unary main_v25 main_v27 (broadcastInDim S8192x23x512 ![0, 1, 2] bcast_S8192x23x1_S8192x23x512_0_1_2 : (⟨S8192x23x1, .f32⟩ : BufTy).Contents (Elt F) → (⟨S8192x23x512, .f32⟩ : BufTy).Contents (Elt F)),
    StableHlo.unary main_v26 main_v28 (broadcastInDim S8192x23x512 ![0, 1, 2] bcast_S1x23x512_S8192x23x512_0_1_2 : (⟨S1x23x512, .f32⟩ : BufTy).Contents (Elt F) → (⟨S8192x23x512, .f32⟩ : BufTy).Contents (Elt F)),
    StableHlo.binary main_v27 main_v28 main_v29 (mulf : (⟨S8192x23x512, .f32⟩ : BufTy).Contents (Elt F) → (⟨S8192x23x512, .f32⟩ : BufTy).Contents (Elt F) → (⟨S8192x23x512, .f32⟩ : BufTy).Contents (Elt F)),
    StableHlo.unary main_arg6 main_v30 (broadcastInDim S1x23x512 ![1, 2] bcast_S23x512_S1x23x512_1_2 : (⟨S23x512, .f32⟩ : BufTy).Contents (Elt F) → (⟨S1x23x512, .f32⟩ : BufTy).Contents (Elt F)),
    StableHlo.unary main_v30 main_v31 (broadcastInDim S8192x23x512 ![0, 1, 2] bcast_S1x23x512_S8192x23x512_0_1_2 : (⟨S1x23x512, .f32⟩ : BufTy).Contents (Elt F) → (⟨S8192x23x512, .f32⟩ : BufTy).Contents (Elt F)),
    StableHlo.binary main_v29 main_v31 main_v32 (addf : (⟨S8192x23x512, .f32⟩ : BufTy).Contents (Elt F) → (⟨S8192x23x512, .f32⟩ : BufTy).Contents (Elt F) → (⟨S8192x23x512, .f32⟩ : BufTy).Contents (Elt F)),
    StableHlo.unary main_v9 main_v33 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v32 main_v34 ((extractStridedSlice S8192x1x512 ![0, 0, 0] · slices_S8192x23x512_S8192x1x512_0_0_0) : (⟨S8192x23x512, .f32⟩ : BufTy).Contents (Elt F) → (⟨S8192x1x512, .f32⟩ : BufTy).Contents (Elt F)),
    StableHlo.unary main_v19 main_v35 (broadcastInDim S8192x1x512 ![0, 2] bcast_S8192x512_S8192x1x512_0_2 : (⟨S8192x512, .f32⟩ : BufTy).Contents (Elt F) → (⟨S8192x1x512, .f32⟩ : BufTy).Contents (Elt F)),
    StableHlo.unary main_v32 main_v36 ((extractStridedSlice S8192x22x512 ![0, 1, 0] · slices_S8192x23x512_S8192x22x512_0_1_0) : (⟨S8192x23x512, .f32⟩ : BufTy).Contents (Elt F) → (⟨S8192x22x512, .f32⟩ : BufTy).Contents (Elt F)),
    StableHlo.nary ![main_v33, main_v34, main_v35, main_v36] main_v37 (fun u => concatenate S8192x25x512 1 [⟨S8192x1x512, u 0⟩, ⟨S8192x1x512, u 1⟩, ⟨S8192x1x512, u 2⟩, ⟨S8192x22x512, u 3⟩] concatenates_S8192x1x512_S8192x1x512_S8192x1x512_S8192x22x512_S8192x25x512_d1) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., nary_bufs_sub ..⟩

/-- From any memory with zero counters the program terminates, and every buffer ends at the fold of the 47
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefTerm.lean ====
/-
  The reference's result as one composed term of its seven argument arrays, stage by stage: the three column
  tables (a literal table, plus 39 where a mask says so — the mask is all false, so the table itself), the forehand
  and palm tokens (gather the table's columns, multiply by the transposed weight, add the bias row), the
  twenty-three single-sensor tokens (gather one column each, times a weight row, plus a bias row), and the four
  pieces laid along the token axis.  Then: what the fold of the 47 operations leaves in the result buffer is this
  term of the launch contents, and it leaves every argument buffer as it was.
-/
import proofs.«119597_j64269890618106_2_alg».proof.Proof.RefRun
import Idealize.ShloMosaic.PureOps.Ideal

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

/-- The forehand column table as the gather receives it. -/
def tabF : IVec S9x1 32 :=
  broadcastInDim S9x1 ![0] bcast_S9_S9x1_0
    (select (constantI S9 1 0#1) (addi (fun i => lit0 (S9.rowMajor i)) (broadcastInDim S9 ![] bcast_S_S9 (constantI S_ 32 39#32)))
      (fun i => lit0 (S9.rowMajor i)))

/-- The palm column table as the gather receives it. -/
def tabP : IVec S7x1 32 :=
  broadcastInDim S7x1 ![0] bcast_S7_S7x1_0
    (select (constantI S7 1 0#1) (addi (fun i => lit1 (S7.rowMajor i)) (broadcastInDim S7 ![] bcast_S_S7 (constantI S_ 32 39#32)))
      (fun i => lit1 (S7.rowMajor i)))

/-- The single-sensor column table as the gather receives it. -/
def tabS : IVec S23x1 32 :=
  broadcastInDim S23x1 ![0] bcast_S23_S23x1_0
    (select (constantI S23 1 0#1) (addi (fun i => lit2 (S23.rowMajor i)) (broadcastInDim S23 ![] bcast_S_S23 (constantI S_ 32 39#32)))
      (fun i => lit2 (S23.rowMajor i)))

/-- The forehand token of every batch row: nine gathered columns times the transposed weight, plus the bias row. -/
def fore (x : FVec Ideal S8192x39 .f32) (Wf : FVec Ideal S512x9 .f32) (bf : FVec Ideal S512 .f32) : FVec Ideal S8192x512 .f32 :=
  addf (Host.dotGeneral dot_S8192x9_S9x512_S8192x512_1_0_0_1_n_n none
      (Host.gather gather_S8192x39_S9x1_S8192x9_0_1_n_n_1_1_81921 x tabF)
      (transpose S9x512 [1, 0] Wf transposes_S512x9_S9x512_1_0))
    (broadcastInDim S8192x512 ![0, 1] bcast_S1x512_S8192x512_0_1 (broadcastInDim S1x512 ![1] bcast_S512_S1x512_1 bf))

/-- The palm token of every batch row: seven gathered columns times the transposed weight, plus the bias row. -/
def palm (x : FVec Ideal S8192x39 .f32) (Wp : FVec Ideal S512x7 .f32) (bp : FVec Ideal S512 .f32) : FVec Ideal S8192x512 .f32 :=
  addf (Host.dotGeneral dot_S8192x7_S7x512_S8192x512_1_0_0_1_n_n none
      (Host.gather gather_S8192x39_S7x1_S8192x7_0_1_n_n_1_1_81921 x tabP)
      (transpose S7x512 [1, 0] Wp transposes_S512x7_S7x512_1_0))
    (broadcastInDim S8192x512 ![0, 1] bcast_S1x512_S8192x512_0_1 (broadcastInDim S1x512 ![1] bcast_S512_S1x512_1 bp))

/-- The twenty-three single-sensor tokens of every batch row: one gathered column each, times that sensor's weight
    row, plus its bias row. -/
def single (x : FVec Ideal S8192x39 .f32) (Ws bs : FVec Ideal S23x512 .f32) : FVec Ideal S8192x23x512 .f32 :=
  addf
    (mulf
      (broadcastInDim S8192x23x512 ![0, 1, 2] bcast_S8192x23x1_S8192x23x512_0_1_2
        (broadcastInDim S8192x23x1 ![0, 1] bcast_S8192x23_S8192x23x1_0_1
          (Host.gather gather_S8192x39_S23x1_S8192x23_0_1_n_n_1_1_81921 x tabS)))
      (broadcastInDim S8192x23x512 ![0, 1, 2] bcast_S1x23x512_S8192x23x512_0_1_2
        (broadcastInDim S1x23x512 ![1, 2] bcast_S23x512_S1x23x512_1_2 Ws)))
    (broadcastInDim S8192x23x512 ![0, 1, 2] bcast_S1x23x512_S8192x23x512_0_1_2
      (broadcastInDim S1x23x512 ![1, 2] bcast_S23x512_S1x23x512_1_2 bs))

/-- The whole result: along the token axis the forehand token, sensor 0's token, the palm token, then sensors
    1 to 22. -/
def out (x : FVec Ideal S8192x39 .f32) (Wf : FVec Ideal S512x9 .f32) (bf : FVec Ideal S512 .f32)
    (Wp : FVec Ideal S512x7 .f32) (bp : FVec Ideal S512 .f32) (Ws bs : FVec Ideal S23x512 .f32) : FVec Ideal S8192x25x512 .f32 :=
  concatenate S8192x25x512 1
    [⟨S8192x1x512, broadcastInDim S8192x1x512 ![0, 2] bcast_S8192x512_S8192x1x512_0_2 (fore x Wf bf)⟩,
     ⟨S8192x1x512, extractStridedSlice S8192x1x512 ![0, 0, 0] (single x Ws bs) slices_S8192x23x512_S8192x1x512_0_0_0⟩,
     ⟨S8192x1x512, broadcastInDim S8192x1x512 ![0, 2] bcast_S8192x512_S8192x1x512_0_2 (palm x Wp bp)⟩,
     ⟨S8192x22x512, extractStridedSlice S8192x22x512 ![0, 1, 0] (single x Ws bs) slices_S8192x23x512_S8192x22x512_0_1_0⟩]
    concatenates_S8192x1x512_S8192x1x512_S8192x1x512_S8192x22x512_S8192x25x512_d1

/-- The fold of the 47 operations leaves the composed term in the result buffer. -/
theorem after_v37 (V : Valuation τ sig (Elt Ideal)) :
    after (ops (F := Ideal)) V (Proc.devRef .tc main_v37)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  rfl

/-- No operation writes argument 0. -/
theorem after_arg0 (V : Valuation τ sig (Elt Ideal)) :
    after (ops (F := Ideal)) V (Proc.devRef .tc main_arg0) = V (Proc.devRef .tc main_arg0) := by
  after_results_simp

/-- No operation writes argument 1. -/
theorem after_arg1 (V : Valuation τ sig (Elt Ideal)) :
    after (ops (F := Ideal)) V (Proc.devRef .tc main_arg1) = V (Proc.devRef .tc main_arg1) := by
  after_results_simp

/-- No operation writes argument 2. -/
theorem after_arg2 (V : Valuation τ sig (Elt Ideal)) :
    after (ops (F := Ideal)) V (Proc.devRef .tc main_arg2) = V (Proc.devRef .tc main_arg2) := by
  after_results_simp

/-- No operation writes argument 3. -/
theorem after_arg3 (V : Valuation τ sig (Elt Ideal)) :
    after (ops (F := Ideal)) V (Proc.devRef .tc main_arg3) = V (Proc.devRef .tc main_arg3) := by
  after_results_simp

/-- No operation writes argument 4. -/
theorem after_arg4 (V : Valuation τ sig (Elt Ideal)) :
    after (ops (F := Ideal)) V (Proc.devRef .tc main_arg4) = V (Proc.devRef .tc main_arg4) := by
  after_results_simp

/-- No operation writes argument 5. -/
theorem after_arg5 (V : Valuation τ sig (Elt Ideal)) :
    after (ops (F := Ideal)) V (Proc.devRef .tc main_arg5) = V (Proc.devRef .tc main_arg5) := by
  after_results_simp

/-- No operation writes argument 6. -/
theorem after_arg6 (V : Valuation τ sig (Elt Ideal)) :
    after (ops (F := Ideal)) V (Proc.devRef .tc main_arg6) = V (Proc.devRef .tc main_arg6) := by
  after_results_simp

end Cert.ReferenceIdeal.RefTerm

end
-- ==== Proof.RefGather.lean ====
/-
  Gathering whole columns of a matrix, read at an index.  An operand of shape [B, N], start indices of shape
  [K, 1] (one column number per result column), a result of shape [B, K]: result element (b, k) is the operand's
  element in row b and in the column the k-th start index names, that number read as a signed integer and clamped
  into [0, N - 1].
-/
import Idealize.ShloMosaic.PureOps.Ideal
import Idealize.ShloMosaic.Lib.ValueIdx

noncomputable section

namespace Cert.ReferenceIdeal.RefGather

open Idealize.ShloMosaic Idealize.ShloMosaic.ValueIdx

variable {α : Type}

/-- The dimension numbers of a gather of K whole columns of a [B, N] operand. -/
abbrev colDims (B N K : Nat)
    (wf : GatherDims.WF ⟨2, ![B, N]⟩ ⟨2, ![K, 1]⟩ ⟨2, ![B, K]⟩ [0] [1] [] [1] [] 1 ![B, 1]) :
    GatherDims ⟨2, ![B, N]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- The column gather at (b, k): row b of the operand, at the column the k-th start index names (clamped). -/
theorem gather_cols_apply {B N K w : Nat} (hN : 0 < N)
    (wf : GatherDims.WF ⟨2, ![B, N]⟩ ⟨2, ![K, 1]⟩ ⟨2, ![B, K]⟩ [0] [1] [] [1] [] 1 ![B, 1])
    (x : (⟨2, ![B, N]⟩ : Shape).Idx → α) (idx : IVec ⟨2, ![K, 1]⟩ w) (b : Fin B) (k : Fin K) :
    Host.gather (colDims B N K wf) x idx (ix2 b k)
      = x (ix2 b ⟨min (idx (ix2 k (0 : Fin 1))).toInt.toNat (N - 1), by omega⟩) := by
  unfold Host.gather
  refine congrArg x (funext fun a => Fin.ext ?_)
  match a with
  | ⟨0, _⟩ =>
    show (colDims B N K wf).start (ix2 b k) idx 0 + (colDims B N K wf).batchCoord (ix2 b k) 0
        + (colDims B N K wf).offCoord (ix2 b k) 0 = b.val
    rw [GatherDims.batchCoord_eq_zero _ _ _ List.not_mem_nil]
    have hs : (colDims B N K wf).start (ix2 b k) idx 0 = 0 := by
      unfold GatherDims.start
      exact dif_neg (fun h => absurd (congrArg Fin.val (List.mem_singleton.mp h)) (show ¬((0 : Nat) = 1) from Nat.zero_ne_one))
    rw [hs]
    simp only [Nat.add_zero, Nat.zero_add]
    rfl
  | ⟨1, _⟩ =>
    show (colDims B N K wf).start (ix2 b k) idx 1 + (colDims B N K wf).batchCoord (ix2 b k) 1
        + (colDims B N K wf).offCoord (ix2 b k) 1 = min (idx (ix2 k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B N K wf).startIndexMap from List.mem_singleton.mpr rfl)]
    have hsi : (colDims B N K wf).siIdx (ix2 b k) ⟨List.idxOf (1 : Fin 2) (colDims B N K wf).startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

end Cert.ReferenceIdeal.RefGather

end
-- ==== Proof.RefIdx.lean ====
/-
  The three column tables against the specification's column lists.  Each table entry, read as a signed integer
  and clamped into [0, 38] as a gather clamps it, is the specification's column number (decided once over the
  literal tables); hence each of the three gathers reads the specification's columns of the input row.
-/
import proofs.«119597_j64269890618106_2_alg».proof.Proof.RefTerm
import proofs.«119597_j64269890618106_2_alg».proof.Proof.RefGather
import proofs.«119597_j64269890618106_2_alg».proof.Proof.Spec
import Idealize.ShloMosaic.Lib.Pipeline.Value

noncomputable section

namespace Cert.ReferenceIdeal.RefIdx

open Cert.ReferenceIdeal Cert.ReferenceIdeal.Gen Cert.ReferenceIdeal.RefTerm Cert.ReferenceIdeal.RefGather
open Idealize.ShloMosaic Idealize.ShloMosaic.ValueIdx

/-- Forehand table entries, clamped, are the specification's forehand columns. -/
theorem fore_col : ∀ k : Fin 9, min (lit0 k).toInt.toNat (39 - 1) = (Cert.Spec.FORE k).val := by decide
/-- Palm table entries, clamped, are the specification's palm columns. -/
theorem palm_col : ∀ k : Fin 7, min (lit1 k).toInt.toNat (39 - 1) = (Cert.Spec.PALM k).val := by decide
/-- Single-sensor table entries, clamped, are the specification's single-sensor columns. -/
theorem sing_col : ∀ k : Fin 23, min (lit2 k).toInt.toNat (39 - 1) = (Cert.Spec.SING k).val := by decide

/-- The fore table at entry k is the literal table's entry k: the mask is all false, so the select keeps the
    table, and the leading broadcast only adds a unit axis. -/
theorem tabF_apply (k : Fin 9) : tabF (ix2 k (0 : Fin 1)) = lit0 k := by
  unfold tabF
  rw [broadcastInDim_apply _ _ _ (ix2 k (0 : Fin 1)) (ix1 k) (fun a => by match a with | ⟨0, _⟩ => rfl)]
  rw [select_apply]
  show Scalar.select 0#1 _ (lit0 (S9.rowMajor (ix1 k))) = lit0 k
  rw [Idealize.ShloMosaic.ValueIdx.select_zero]
  exact congrArg lit0 (Fin.ext (Shape.rowMajor_val_one (ix1 k)))

/-- Gathering with that table reads, in row b, the k-th fore column of the specification. -/
theorem gatherF_apply (x : FVec Ideal S8192x39 .f32) (b : Fin 8192) (k : Fin 9) :
    Host.gather gather_S8192x39_S9x1_S8192x9_0_1_n_n_1_1_81921 x tabF (ix2 b k) = x (ix2 b (Cert.Spec.FORE k)) := by
  have e : gather_S8192x39_S9x1_S8192x9_0_1_n_n_1_1_81921 = colDims 8192 39 9 gather_S8192x39_S9x1_S8192x9_0_1_n_n_1_1_81921_wf := rfl
  rw [e, gather_cols_apply (by decide) _ x tabF b k]
  refine congrArg x (congrArg (ix2 b) (Fin.ext ?_))
  show min (tabF (ix2 k (0 : Fin 1))).toInt.toNat (39 - 1) = _
  rw [tabF_apply]
  exact fore_col k

/-- The palm table at entry k is the literal table's entry k: the mask is all false, so the select keeps the
    table, and the leading broadcast only adds a unit axis. -/
theorem tabP_apply (k : Fin 7) : tabP (ix2 k (0 : Fin 1)) = lit1 k := by
  unfold tabP
  rw [broadcastInDim_apply _ _ _ (ix2 k (0 : Fin 1)) (ix1 k) (fun a => by match a with | ⟨0, _⟩ => rfl)]
  rw [select_apply]
  show Scalar.select 0#1 _ (lit1 (S7.rowMajor (ix1 k))) = lit1 k
  rw [Idealize.ShloMosaic.ValueIdx.select_zero]
  exact congrArg lit1 (Fin.ext (Shape.rowMajor_val_one (ix1 k)))

/-- Gathering with that table reads, in row b, the k-th palm column of the specification. -/
theorem gatherP_apply (x : FVec Ideal S8192x39 .f32) (b : Fin 8192) (k : Fin 7) :
    Host.gather gather_S8192x39_S7x1_S8192x7_0_1_n_n_1_1_81921 x tabP (ix2 b k) = x (ix2 b (Cert.Spec.PALM k)) := by
  have e : gather_S8192x39_S7x1_S8192x7_0_1_n_n_1_1_81921 = colDims 8192 39 7 gather_S8192x39_S7x1_S8192x7_0_1_n_n_1_1_81921_wf := rfl
  rw [e, gather_cols_apply (by decide) _ x tabP b k]
  refine congrArg x (congrArg (ix2 b) (Fin.ext ?_))
  show min (tabP (ix2 k (0 : Fin 1))).toInt.toNat (39 - 1) = _
  rw [tabP_apply]
  exact palm_col k

/-- The sing table at entry k is the literal table's entry k: the mask is all false, so the select keeps the
    table, and the leading broadcast only adds a unit axis. -/
theorem tabS_apply (k : Fin 23) : tabS (ix2 k (0 : Fin 1)) = lit2 k := by
  unfold tabS
  rw [broadcastInDim_apply _ _ _ (ix2 k (0 : Fin 1)) (ix1 k) (fun a => by match a with | ⟨0, _⟩ => rfl)]
  rw [select_apply]
  show Scalar.select 0#1 _ (lit2 (S23.rowMajor (ix1 k))) = lit2 k
  rw [Idealize.ShloMosaic.ValueIdx.select_zero]
  exact congrArg lit2 (Fin.ext (Shape.rowMajor_val_one (ix1 k)))

/-- Gathering with that table reads, in row b, the k-th sing column of the specification. -/
theorem gatherS_apply (x : FVec Ideal S8192x39 .f32) (b : Fin 8192) (k : Fin 23) :
    Host.gather gather_S8192x39_S23x1_S8192x23_0_1_n_n_1_1_81921 x tabS (ix2 b k) = x (ix2 b (Cert.Spec.SING k)) := by
  have e : gather_S8192x39_S23x1_S8192x23_0_1_n_n_1_1_81921 = colDims 8192 39 23 gather_S8192x39_S23x1_S8192x23_0_1_n_n_1_1_81921_wf := rfl
  rw [e, gather_cols_apply (by decide) _ x tabS b k]
  refine congrArg x (congrArg (ix2 b) (Fin.ext ?_))
  show min (tabS (ix2 k (0 : Fin 1))).toInt.toNat (39 - 1) = _
  rw [tabS_apply]
  exact sing_col k

end Cert.ReferenceIdeal.RefIdx

end
-- ==== Proof.RefTok.lean ====
/-
  The three kinds of token read at one index.  The forehand and palm tokens are a sum over the gathered columns of
  input column times weight entry (the weight read transposed) plus a bias entry; a single-sensor token is one input
  column times one weight entry plus one bias entry.  Only the reading of the layout operations is used: no law of
  arithmetic on the extended reals.
-/
import proofs.«119597_j64269890618106_2_alg».proof.Proof.RefIdx
import Idealize.ShloMosaic.Lib.StackMember

noncomputable section

namespace Cert.ReferenceIdeal.RefTok

open Cert.ReferenceIdeal Cert.ReferenceIdeal.Gen Cert.ReferenceIdeal.RefTerm Cert.ReferenceIdeal.RefIdx
open Idealize.ShloMosaic Idealize.ShloMosaic.ValueIdx Idealize.ShloMosaic.StackMember

/-- The fore token at (b, d): the 9 fore columns of row b against row d of the weight, plus bias entry d. -/
theorem fore_apply (x : FVec Ideal S8192x39 .f32) (Wf : FVec Ideal S512x9 .f32) (bf : FVec Ideal S512 .f32)
    (b : Fin 8192) (d : Fin 512) :
    fore x Wf bf (ix2 b d) = (∑ j : Fin 9, x (ix2 b (Cert.Spec.FORE j)) * Wf (ix2 d j)) + bf (ix1 d) := by
  unfold fore
  rw [addf_apply]
  have eD : dot_S8192x9_S9x512_S8192x512_1_0_0_1_n_n = DotDims.plain 8192 9 512 := rfl
  rw [eD, dotGeneral_plain_apply]
  congr 1
  · refine Finset.sum_congr rfl fun j _ => ?_
    rw [gatherF_apply,
      transpose_apply [1, 0] Wf _ (ix2 j d) (ix2 d j) (fun a => by match a with | ⟨0, _⟩ => rfl | ⟨1, _⟩ => rfl)]
  · rw [broadcastInDim_apply _ _ _ (ix2 b d) (ix2 (0 : Fin 1) d) (fun a => by match a with | ⟨0, _⟩ => rfl | ⟨1, _⟩ => rfl),
      broadcastInDim_apply _ _ _ (ix2 (0 : Fin 1) d) (ix1 d) (fun a => by match a with | ⟨0, _⟩ => rfl)]

/-- The palm token at (b, d): the 7 palm columns of row b against row d of the weight, plus bias entry d. -/
theorem palm_apply (x : FVec Ideal S8192x39 .f32) (Wp : FVec Ideal S512x7 .f32) (bp : FVec Ideal S512 .f32)
    (b : Fin 8192) (d : Fin 512) :
    palm x Wp bp (ix2 b d) = (∑ j : Fin 7, x (ix2 b (Cert.Spec.PALM j)) * Wp (ix2 d j)) + bp (ix1 d) := by
  unfold palm
  rw [addf_apply]
  have eD : dot_S8192x7_S7x512_S8192x512_1_0_0_1_n_n = DotDims.plain 8192 7 512 := rfl
  rw [eD, dotGeneral_plain_apply]
  congr 1
  · refine Finset.sum_congr rfl fun j _ => ?_
    rw [gatherP_apply,
      transpose_apply [1, 0] Wp _ (ix2 j d) (ix2 d j) (fun a => by match a with | ⟨0, _⟩ => rfl | ⟨1, _⟩ => rfl)]
  · rw [broadcastInDim_apply _ _ _ (ix2 b d) (ix2 (0 : Fin 1) d) (fun a => by match a with | ⟨0, _⟩ => rfl | ⟨1, _⟩ => rfl),
      broadcastInDim_apply _ _ _ (ix2 (0 : Fin 1) d) (ix1 d) (fun a => by match a with | ⟨0, _⟩ => rfl)]

/-- Sensor s's token at (b, d): its input column of row b times its weight entry d, plus its bias entry d. -/
theorem single_apply (x : FVec Ideal S8192x39 .f32) (Ws bs : FVec Ideal S23x512 .f32)
    (b : Fin 8192) (s : Fin 23) (d : Fin 512) :
    single x Ws bs (ix3 b s d) = x (ix2 b (Cert.Spec.SING s)) * Ws (ix2 s d) + bs (ix2 s d) := by
  unfold single
  rw [addf_apply, mulf_apply]
  rw [broadcastInDim_apply _ _ _ (ix3 b s d) (ix3 b s (0 : Fin 1))
        (fun a => by match a with | ⟨0, _⟩ => rfl | ⟨1, _⟩ => rfl | ⟨2, _⟩ => rfl),
      broadcastInDim_apply _ _ _ (ix3 b s (0 : Fin 1)) (ix2 b s)
        (fun a => by match a with | ⟨0, _⟩ => rfl | ⟨1, _⟩ => rfl),
      gatherS_apply]
  rw [broadcastInDim_apply _ _ (broadcastInDim S1x23x512 ![1, 2] bcast_S23x512_S1x23x512_1_2 Ws) (ix3 b s d) (ix3 (0 : Fin 1) s d)
        (fun a => by match a with | ⟨0, _⟩ => rfl | ⟨1, _⟩ => rfl | ⟨2, _⟩ => rfl),
      broadcastInDim_apply _ _ Ws (ix3 (0 : Fin 1) s d) (ix2 s d)
        (fun a => by match a with | ⟨0, _⟩ => rfl | ⟨1, _⟩ => rfl)]
  rw [broadcastInDim_apply _ _ (broadcastInDim S1x23x512 ![1, 2] bcast_S23x512_S1x23x512_1_2 bs) (ix3 b s d) (ix3 (0 : Fin 1) s d)
        (fun a => by match a with | ⟨0, _⟩ => rfl | ⟨1, _⟩ => rfl | ⟨2, _⟩ => rfl),
      broadcastInDim_apply _ _ bs (ix3 (0 : Fin 1) s d) (ix2 s d)
        (fun a => by match a with | ⟨0, _⟩ => rfl | ⟨1, _⟩ => rfl)]

end Cert.ReferenceIdeal.RefTok

end
-- ==== Proof.RefValue.lean ====
/-
  The reference's result is the specification.  Along the token axis the result is four pieces of extents 1, 1, 1
  and 22: token 0 reads the forehand token, token 1 reads sensor 0's token, token 2 the palm token, and token
  t ≥ 3 reads sensor t − 2's token (piece four at position t − 3, which is the sensor tokens from sensor 1 on).
  Each case is the matching branch of the specification.  With the run of the 47 operations this gives: every
  execution of the reference ends with the specification's array in the result buffer and the arguments unchanged.
-/
import proofs.«119597_j64269890618106_2_alg».proof.Proof.RefTok

noncomputable section

namespace Cert.ReferenceIdeal.RefValue

open Cert.ReferenceIdeal Idealize.ShloMosaic Idealize.ShloMosaic.TcCoe Idealize.SL.Sem
open Cert.ReferenceIdeal.Gen Cert.ReferenceIdeal.RefRun Cert.ReferenceIdeal.RefTerm Cert.ReferenceIdeal.RefTok
open Idealize.ShloMosaic.ValueIdx Idealize.ShloMosaic.StableHlo

/-! ## The four pieces along the token axis -/

/-- Token 0 is the first piece. -/
theorem cat_tok0 (p0 p1 p2 : FVec Ideal S8192x1x512 .f32) (p3 : FVec Ideal S8192x22x512 .f32)
    (b : Fin 8192) (t : Fin 25) (d : Fin 512) (h : t.val = 0) :
    concatenate S8192x25x512 1
        [⟨S8192x1x512, p0⟩, ⟨S8192x1x512, p1⟩, ⟨S8192x1x512, p2⟩, ⟨S8192x22x512, p3⟩]
        concatenates_S8192x1x512_S8192x1x512_S8192x1x512_S8192x22x512_S8192x25x512_d1 (ix3 b t d) = p0 (ix3 b (0 : Fin 1) d) :=
  concatenate_apply_piece (1 : Fin S8192x25x512.rank) [⟨S8192x1x512, p0⟩, ⟨S8192x1x512, p1⟩, ⟨S8192x1x512, p2⟩, ⟨S8192x22x512, p3⟩]
    concatenates_S8192x1x512_S8192x1x512_S8192x1x512_S8192x22x512_S8192x25x512_d1 (ix3 b t d)
    0 (show (0 : Nat) < 4 by omega) S8192x1x512 p0 rfl rfl 0 rfl (ix3 b (0 : Fin 1) d)
    (fun a => by
      match a with
      | ⟨0, _⟩ => exact fun _ => rfl
      | ⟨1, _⟩ => exact fun h => absurd rfl h
      | ⟨2, _⟩ => exact fun _ => rfl)
    (by show 0 + 0 = t.val; omega)

/-- Token 1 is the second piece. -/
theorem cat_tok1 (p0 p1 p2 : FVec Ideal S8192x1x512 .f32) (p3 : FVec Ideal S8192x22x512 .f32)
    (b : Fin 8192) (t : Fin 25) (d : Fin 512) (h : t.val = 1) :
    concatenate S8192x25x512 1
        [⟨S8192x1x512, p0⟩, ⟨S8192x1x512, p1⟩, ⟨S8192x1x512, p2⟩, ⟨S8192x22x512, p3⟩]
        concatenates_S8192x1x512_S8192x1x512_S8192x1x512_S8192x22x512_S8192x25x512_d1 (ix3 b t d) = p1 (ix3 b (0 : Fin 1) d) :=
  concatenate_apply_piece (1 : Fin S8192x25x512.rank) [⟨S8192x1x512, p0⟩, ⟨S8192x1x512, p1⟩, ⟨S8192x1x512, p2⟩, ⟨S8192x22x512, p3⟩]
    concatenates_S8192x1x512_S8192x1x512_S8192x1x512_S8192x22x512_S8192x25x512_d1 (ix3 b t d)
    1 (show (1 : Nat) < 4 by omega) S8192x1x512 p1 rfl rfl 1 rfl (ix3 b (0 : Fin 1) d)
    (fun a => by
      match a with
      | ⟨0, _⟩ => exact fun _ => rfl
      | ⟨1, _⟩ => exact fun h => absurd rfl h
      | ⟨2, _⟩ => exact fun _ => rfl)
    (by show 1 + 0 = t.val; omega)

/-- Token 2 is the third piece. -/
theorem cat_tok2 (p0 p1 p2 : FVec Ideal S8192x1x512 .f32) (p3 : FVec Ideal S8192x22x512 .f32)
    (b : Fin 8192) (t : Fin 25) (d : Fin 512) (h : t.val = 2) :
    concatenate S8192x25x512 1
        [⟨S8192x1x512, p0⟩, ⟨S8192x1x512, p1⟩, ⟨S8192x1x512, p2⟩, ⟨S8192x22x512, p3⟩]
        concatenates_S8192x1x512_S8192x1x512_S8192x1x512_S8192x22x512_S8192x25x512_d1 (ix3 b t d) = p2 (ix3 b (0 : Fin 1) d) :=
  concatenate_apply_piece (1 : Fin S8192x25x512.rank) [⟨S8192x1x512, p0⟩, ⟨S8192x1x512, p1⟩, ⟨S8192x1x512, p2⟩, ⟨S8192x22x512, p3⟩]
    concatenates_S8192x1x512_S8192x1x512_S8192x1x512_S8192x22x512_S8192x25x512_d1 (ix3 b t d)
    2 (show (2 : Nat) < 4 by omega) S8192x1x512 p2 rfl rfl 2 rfl (ix3 b (0 : Fin 1) d)
    (fun a => by
      match a with
      | ⟨0, _⟩ => exact fun _ => rfl
      | ⟨1, _⟩ => exact fun h => absurd rfl h
      | ⟨2, _⟩ => exact fun _ => rfl)
    (by show 2 + 0 = t.val; omega)

/-- Token t ≥ 3 is position t − 3 of the fourth piece. -/
theorem cat_rest (p0 p1 p2 : FVec Ideal S8192x1x512 .f32) (p3 : FVec Ideal S8192x22x512 .f32)
    (b : Fin 8192) (t : Fin 25) (d : Fin 512) (h : 3 ≤ t.val) :
    concatenate S8192x25x512 1
        [⟨S8192x1x512, p0⟩, ⟨S8192x1x512, p1⟩, ⟨S8192x1x512, p2⟩, ⟨S8192x22x512, p3⟩]
        concatenates_S8192x1x512_S8192x1x512_S8192x1x512_S8192x22x512_S8192x25x512_d1 (ix3 b t d) = p3 (ix3 b (⟨t.val - 3, by omega⟩ : Fin 22) d) :=
  concatenate_apply_piece (1 : Fin S8192x25x512.rank) [⟨S8192x1x512, p0⟩, ⟨S8192x1x512, p1⟩, ⟨S8192x1x512, p2⟩, ⟨S8192x22x512, p3⟩]
    concatenates_S8192x1x512_S8192x1x512_S8192x1x512_S8192x22x512_S8192x25x512_d1 (ix3 b t d)
    3 (show (3 : Nat) < 4 by omega) S8192x22x512 p3 rfl rfl 3 rfl (ix3 b (⟨t.val - 3, by omega⟩ : Fin 22) d)
    (fun a => by
      match a with
      | ⟨0, _⟩ => exact fun _ => rfl
      | ⟨1, _⟩ => exact fun h => absurd rfl h
      | ⟨2, _⟩ => exact fun _ => rfl)
    (by show 3 + (t.val - 3) = t.val; omega)

/-! ## The result against the specification -/

/-- The composed term at (b, t, d) is the specification's value there. -/
theorem out_apply (x : FVec Ideal S8192x39 .f32) (Wf : FVec Ideal S512x9 .f32) (bf : FVec Ideal S512 .f32)
    (Wp : FVec Ideal S512x7 .f32) (bp : FVec Ideal S512 .f32) (Ws bs : FVec Ideal S23x512 .f32)
    (b : Fin 8192) (t : Fin 25) (d : Fin 512) :
    out x Wf bf Wp bp Ws bs (ix3 b t d) = Cert.Spec.G x Wf bf Wp bp Ws bs b t d := by
  unfold out Cert.Spec.G
  by_cases h0 : t.val = 0
  · rw [if_pos h0, cat_tok0 _ _ _ _ b t d h0,
      broadcastInDim_apply _ _ _ (ix3 b (0 : Fin 1) d) (ix2 b d) (fun a => by match a with | ⟨0, _⟩ => rfl | ⟨1, _⟩ => rfl),
      fore_apply]
  · rw [if_neg h0]
    by_cases h2 : t.val = 2
    · rw [if_pos h2, cat_tok2 _ _ _ _ b t d h2,
        broadcastInDim_apply _ _ _ (ix3 b (0 : Fin 1) d) (ix2 b d) (fun a => by match a with | ⟨0, _⟩ => rfl | ⟨1, _⟩ => rfl),
        palm_apply]
    · rw [if_neg h2]
      by_cases h1 : t.val = 1
      · have hs : Cert.Spec.SENS t = (0 : Fin 23) := by
          unfold Cert.Spec.SENS; rw [if_pos h1]; rfl
        rw [hs, cat_tok1 _ _ _ _ b t d h1,
          extractStridedSlice_apply _ _ _ (ix3 b (0 : Fin 1) d) (ix3 b (0 : Fin 23) d) (fun a => by
            match a with
            | ⟨0, _⟩ => show b.val = 0 + b.val; omega
            | ⟨1, _⟩ => rfl
            | ⟨2, _⟩ => show d.val = 0 + d.val; omega),
          single_apply]
      · have h3 : 3 ≤ t.val := by omega
        have hs : Cert.Spec.SENS t = (⟨t.val - 2, by have := t.isLt; omega⟩ : Fin 23) := by
          unfold Cert.Spec.SENS; rw [if_neg h1]
        rw [hs, cat_rest _ _ _ _ b t d h3,
          extractStridedSlice_apply _ _ _ (ix3 b (⟨t.val - 3, by have := t.isLt; omega⟩ : Fin 22) d)
            (ix3 b (⟨t.val - 2, by have := t.isLt; omega⟩ : Fin 23) d) (fun a => by
            match a with
            | ⟨0, _⟩ => show b.val = 0 + b.val; omega
            | ⟨1, _⟩ => show t.val - 2 = 1 + (t.val - 3); omega
            | ⟨2, _⟩ => show d.val = 0 + d.val; omega),
          single_apply]

/-- The composed term is the specification's array. -/
theorem out_eq (x : FVec Ideal S8192x39 .f32) (Wf : FVec Ideal S512x9 .f32) (bf : FVec Ideal S512 .f32)
    (Wp : FVec Ideal S512x7 .f32) (bp : FVec Ideal S512 .f32) (Ws bs : FVec Ideal S23x512 .f32) :
    out x Wf bf Wp bp Ws bs = Cert.Spec.Gfun x Wf bf Wp bp Ws bs := by
  funext i
  obtain ⟨b, t, d, rfl⟩ : ∃ (b : Fin 8192) (t : Fin 25) (d : Fin 512), i = ix3 b t d := ⟨i 0, i 1, i 2, eq_ix3 i⟩
  rw [Cert.Spec.Gfun_apply]
  exact out_apply x Wf bf Wp bp Ws bs b t d

/-! ## The run -/

/-- From any memory with zero counters every weakly fair execution of the reference terminates with the
    specification's array of the arguments in the result buffer and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = Cert.Spec.Gfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v37).trans ((after_v37 (launchContents m c)).trans (out_eq _ _ _ _ _ _ _)),
       (h c main_arg0).trans (after_arg0 (launchContents m c)),
       (h c main_arg1).trans (after_arg1 (launchContents m c)),
       (h c main_arg2).trans (after_arg2 (launchContents m c)),
       (h c main_arg3).trans (after_arg3 (launchContents m c)),
       (h c main_arg4).trans (after_arg4 (launchContents m c)),
       (h c main_arg5).trans (after_arg5 (launchContents m c)),
       (h c main_arg6).trans (after_arg6 (launchContents m c))⟩)
    (run_after (F := Ideal) m ρ)

end Cert.ReferenceIdeal.RefValue

end
-- ==== Proof.lean ====
/-
  The certificate of a sensor tokenizer.  The reference turns each batch row of 39 sensor readings into 25 tokens
  of 512 features: token 0 is a linear map of nine "forehand" readings plus a bias, token 2 a linear map of seven
  "palm" readings plus a bias, and each of the other 23 tokens one reading times a weight row plus a bias row.
  The kernel computes all 25 tokens as ONE dense product of the row with a combined 39 × 12800 weight plus a combined
  bias, both assembled on the host from the reference's parameters by one-hot selector matrices, in 32 row blocks of
  256 rows, and re-reads the 8192 × 12800 result as 8192 × 25 × 512.
  Over the extended reals the two are the same function of the seven arguments, entry by entry: a sum of one-hot
  selector terms collapses to the one selected entry (or to zero), so the combined weight's column block for a token
  is that token's weight routed to its input columns, and the product with the input row keeps exactly the selected
  readings.  Only `0 * a = 0`, `1 * a = a`, `0 + a = a` and sums with one non-zero term are used, so no finiteness
  of the inputs is needed and the precondition is never opened.
  The three frames are the generated frame runs of the two kernel programs and the reference's run with the result
  dropped; the idealization rewrote nothing, so `preserves` is trivial; `algebraic` sets the kernel program's run
  (result = specification) beside the reference's run (result = the same specification) and rewrites the agreement
  of the arguments.
-/
import proofs.«119597_j64269890618106_2_alg».proof.Defs
import proofs.«119597_j64269890618106_2_alg».proof.Proof.Gen.Kernel
import proofs.«119597_j64269890618106_2_alg».proof.Proof.Gen.Kernel.Skeleton
import proofs.«119597_j64269890618106_2_alg».proof.Proof.Gen.Kernel.Launch
import proofs.«119597_j64269890618106_2_alg».proof.Proof.Gen.Kernel.Points
import proofs.«119597_j64269890618106_2_alg».proof.Proof.Gen.Kernel.Frame
import proofs.«119597_j64269890618106_2_alg».proof.Proof.Gen.KernelIdeal
import proofs.«119597_j64269890618106_2_alg».proof.Proof.Gen.KernelIdeal.Skeleton
import proofs.«119597_j64269890618106_2_alg».proof.Proof.Gen.KernelIdeal.Launch
import proofs.«119597_j64269890618106_2_alg».proof.Proof.Gen.KernelIdeal.Points
import proofs.«119597_j64269890618106_2_alg».proof.Proof.Gen.KernelIdeal.Frame
import proofs.«119597_j64269890618106_2_alg».proof.Proof.Gen.ReferenceIdeal
import proofs.«119597_j64269890618106_2_alg».proof.Proof.Gen.Pre_finite_inputs
import proofs.«119597_j64269890618106_2_alg».proof.Proof.KValue
import proofs.«119597_j64269890618106_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the seven arguments both programs end with the result at the specification of those
    arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
